-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S50x2 : Shape := ⟨2, ![50, 2]⟩
abbrev S50 : Shape := ⟨1, ![50]⟩
abbrev S50x50 : Shape := ⟨2, ![50, 50]⟩
abbrev S2x50 : Shape := ⟨2, ![2, 50]⟩
abbrev S2 : Shape := ⟨1, ![2]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S50x2 : S_.BroadcastsInDim S50x2 (![] : Fin 0 → Fin S50x2.rank)
  reducesTo_S50x2_S_d0_1 : S50x2.ReducesTo [0, 1] S_
  bcast_S_S50 : S_.BroadcastsInDim S50 (![] : Fin 0 → Fin S50.rank)
  reducesTo_S50_S_d0 : S50.ReducesTo [0] S_
  bcast_S_S50x50 : S_.BroadcastsInDim S50x50 (![] : Fin 0 → Fin S50x50.rank)
  reducesTo_S50x50_S_d0_1 : S50x50.ReducesTo [0, 1] S_
  bcast_S_S2x50 : S_.BroadcastsInDim S2x50 (![] : Fin 0 → Fin S2x50.rank)
  reducesTo_S2x50_S_d0_1 : S2x50.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_v48 : IVec S_ 1) (main_v49 : FVec F S2x50 .f32) (main_v50 : FVec F S2x50 .f32) : IVec S_ 1 :=
  let main_v51 : IVec S2x50 1 := cmpf .olt main_v49 main_v50
  let main_c_19 : IVec S_ 1 := constantI S_ 1 1#1
  let main_v52 : IVec S_ 1 := (fun x v => Host.reduce IntOp.andi x v reducesTo_S2x50_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S50 .f32) (main_arg8 : FVec F S50x50 .f32) (main_arg9 : FVec F S50 .f32) (main_arg10 : FVec F S2x50 .f32) (main_arg11 : FVec F S2 .f32) (main_v33 : IVec S_ 1) : IVec S_ 1 :=
  let main_v34 : FVec F S50 .f32 := Host.absf main_arg7
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  let main_v39 : FVec F S50x50 .f32 := Host.absf main_arg8
  let main_cst_14 : FVec F S_ .f32 := constant S_ .f32 0x7F800000#32
  let main_v40 : FVec F S50x50 .f32 := broadcastInDim S50x50 ![] bcast_S_S50x50 main_cst_14
  let main_v41 : IVec S50x50 1 := cmpf .olt main_v39 main_v40
  let main_c_15 : IVec S_ 1 := constantI S_ 1 1#1
  let main_v42 : IVec S_ 1 := (fun x v => Host.reduce IntOp.andi x v reducesTo_S50x50_S_d0_1 h_S_) main_v41 main_c_15
  let main_v43 : IVec S_ 1 := andi main_v38 main_v42
  let main_v44 : FVec F S50 .f32 := Host.absf main_arg9
  let main_cst_16 : FVec F S_ .f32 := constant S_ .f32 0x7F800000#32
  let main_v45 : FVec F S50 .f32 := broadcastInDim S50 ![] bcast_S_S50 main_cst_16
  let main_v46 : IVec S50 1 := cmpf .olt main_v44 main_v45
  let main_c_17 : IVec S_ 1 := constantI S_ 1 1#1
  let main_v47 : IVec S_ 1 := (fun x v => Host.reduce IntOp.andi x v reducesTo_S50_S_d0 h_S_) main_v46 main_c_17
  let main_v48 : IVec S_ 1 := andi main_v43 main_v47
  let main_v49 : FVec F S2x50 .f32 := Host.absf main_arg10
  let main_cst_18 : FVec F S_ .f32 := constant S_ .f32 0x7F800000#32
  let main_v50 : FVec F S2x50 .f32 := broadcastInDim S2x50 ![] bcast_S_S2x50 main_cst_18
  fn_part3 (F := F) main_arg11 main_v48 main_v49 main_v50

def fn_part1 {F : FTy → Type} [FloatOps F] (main_arg4 : FVec F S50x50 .f32) (main_arg5 : FVec F S50 .f32) (main_arg6 : FVec F S50x50 .f32) (main_arg7 : FVec F S50 .f32) (main_arg8 : FVec F S50x50 .f32) (main_arg9 : FVec F S50 .f32) (main_arg10 : FVec F S2x50 .f32) (main_arg11 : FVec F S2 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S50x50 .f32 := Host.absf main_arg4
  let main_cst_6 : FVec F S_ .f32 := constant S_ .f32 0x7F800000#32
  let main_v20 : FVec F S50x50 .f32 := broadcastInDim S50x50 ![] bcast_S_S50x50 main_cst_6
  let main_v21 : IVec S50x50 1 := cmpf .olt main_v19 main_v20
  let main_c_7 : IVec S_ 1 := constantI S_ 1 1#1
  let main_v22 : IVec S_ 1 := (fun x v => Host.reduce IntOp.andi x v reducesTo_S50x50_S_d0_1 h_S_) main_v21 main_c_7
  let main_v23 : IVec S_ 1 := andi main_v18 main_v22
  let main_v24 : FVec F S50 .f32 := Host.absf main_arg5
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S50x50 .f32 := Host.absf main_arg6
  let main_cst_10 : FVec F S_ .f32 := constant S_ .f32 0x7F800000#32
  let main_v30 : FVec F S50x50 .f32 := broadcastInDim S50x50 ![] bcast_S_S50x50 main_cst_10
  let main_v31 : IVec S50x50 1 := cmpf .olt main_v29 main_v30
  let main_c_11 : IVec S_ 1 := constantI S_ 1 1#1
  let main_v32 : IVec S_ 1 := (fun x v => Host.reduce IntOp.andi x v reducesTo_S50x50_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S262144 .f32) (main_arg1 : FVec F S262144 .f32) (main_arg2 : FVec F S50x2 .f32) (main_arg3 : FVec F S50 .f32) (main_arg4 : FVec F S50x50 .f32) (main_arg5 : FVec F S50 .f32) (main_arg6 : FVec F S50x50 .f32) (main_arg7 : FVec F S50 .f32) (main_arg8 : FVec F S50x50 .f32) (main_arg9 : FVec F S50 .f32) (main_arg10 : FVec F S2x50 .f32) (main_arg11 : FVec F S2 .f32) : IVec S_ 1 :=
  let main_v0 : FVec F S262144 .f32 := Host.absf main_arg0
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S50x2 .f32 := Host.absf main_arg2
  let main_cst_2 : FVec F S_ .f32 := constant S_ .f32 0x7F800000#32
  let main_v10 : FVec F S50x2 .f32 := broadcastInDim S50x2 ![] bcast_S_S50x2 main_cst_2
  let main_v11 : IVec S50x2 1 := cmpf .olt main_v9 main_v10
  let main_c_3 : IVec S_ 1 := constantI S_ 1 1#1
  let main_v12 : IVec S_ 1 := (fun x v => Host.reduce IntOp.andi x v reducesTo_S50x2_S_d0_1 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg4 main_arg5 main_arg6 main_arg7 main_arg8 main_arg9 main_arg10 main_arg11 main_v13 main_v16
-- ==== Kernel.lean ====
abbrev S262144 : Shape := ⟨1, ![262144]⟩
abbrev S50x2 : Shape := ⟨2, ![50, 2]⟩
abbrev S50 : Shape := ⟨1, ![50]⟩
abbrev S50x50 : Shape := ⟨2, ![50, 50]⟩
abbrev S2x50 : Shape := ⟨2, ![2, 50]⟩
abbrev S2 : Shape := ⟨1, ![2]⟩
abbrev S262144x1 : Shape := ⟨2, ![262144, 1]⟩
abbrev S262144x2 : Shape := ⟨2, ![262144, 2]⟩
abbrev S_ : Shape := ⟨0, ![]⟩
abbrev S1x1 : Shape := ⟨2, ![1, 1]⟩
abbrev S16384x2 : Shape := ⟨2, ![16384, 2]⟩
abbrev S16384x50 : Shape := ⟨2, ![16384, 50]⟩
abbrev S1x50 : Shape := ⟨2, ![1, 50]⟩
abbrev S1x2 : Shape := ⟨2, ![1, 2]⟩

abbrev nBuf : Space → Nat
  | .hbm => 198
  | .vmem => 15
  | .smem => 0
  | _ => 0

abbrev hbmTy0_0 (i : Nat) : BufTy := match i % 128 with
  | 0 => ⟨S262144, .f32⟩
  | 1 => ⟨S262144, .f32⟩
  | 2 => ⟨S50x2, .f32⟩
  | 3 => ⟨S50, .f32⟩
  | 4 => ⟨S50x50, .f32⟩
  | 5 => ⟨S50, .f32⟩
  | 6 => ⟨S50x50, .f32⟩
  | 7 => ⟨S50, .f32⟩
  | 8 => ⟨S50x50, .f32⟩
  | 9 => ⟨S50, .f32⟩
  | 10 => ⟨S2x50, .f32⟩
  | 11 => ⟨S2, .f32⟩
  | 12 => ⟨S262144x1, .f32⟩
  | 13 => ⟨S262144x1, .f32⟩
  | 14 => ⟨S262144x2, .f32⟩
  | 15 => ⟨S262144x2, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S50x2, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S50x2, .f32⟩
  | 30 => ⟨S50x2, .f32⟩
  | 31 => ⟨S50x2, .f32⟩
  | 32 => ⟨S_, .f32⟩
  | 33 => ⟨S_, .f32⟩
  | 34 => ⟨S_, .f32⟩
  | 35 => ⟨S50x2, .f32⟩
  | 36 => ⟨S50x2, .f32⟩
  | 37 => ⟨S_, .f32⟩
  | 38 => ⟨S50x2, .f32⟩
  | 39 => ⟨S50x2, .f32⟩
  | 40 => ⟨S50x2, .f32⟩
  | 41 => ⟨S50x2, .f32⟩
  | 42 => ⟨S_, .f32⟩
  | 43 => ⟨S50, .f32⟩
  | 44 => ⟨S50, .f32⟩
  | 45 => ⟨S50, .f32⟩
  | 46 => ⟨S_, .f32⟩
  | 47 => ⟨S_, .f32⟩
  | 48 => ⟨S_, .f32⟩
  | 49 => ⟨S50, .f32⟩
  | 50 => ⟨S50, .f32⟩
  | 51 => ⟨S_, .f32⟩
  | 52 => ⟨S50, .f32⟩
  | 53 => ⟨S50, .f32⟩
  | 54 => ⟨S50, .f32⟩
  | 55 => ⟨S50, .f32⟩
  | 56 => ⟨S50x50, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S50x50, .f32⟩
  | 64 => ⟨S50x50, .f32⟩
  | 65 => ⟨S50x50, .f32⟩
  | 66 => ⟨S_, .f32⟩
  | 67 => ⟨S_, .f32⟩
  | 68 => ⟨S_, .f32⟩
  | 69 => ⟨S50x50, .f32⟩
  | 70 => ⟨S50x50, .f32⟩
  | 71 => ⟨S_, .f32⟩
  | 72 => ⟨S50x50, .f32⟩
  | 73 => ⟨S50x50, .f32⟩
  | 74 => ⟨S50x50, .f32⟩
  | 75 => ⟨S50x50, .f32⟩
  | 76 => ⟨S_, .f32⟩
  | 77 => ⟨S_, .f32⟩
  | 78 => ⟨S50, .f32⟩
  | 79 => ⟨S50, .f32⟩
  | 80 => ⟨S50, .f32⟩
  | 81 => ⟨S_, .f32⟩
  | 82 => ⟨S_, .f32⟩
  | 83 => ⟨S_, .f32⟩
  | 84 => ⟨S50, .f32⟩
  | 85 => ⟨S50, .f32⟩
  | 86 => ⟨S_, .f32⟩
  | 87 => ⟨S50, .f32⟩
  | 88 => ⟨S50, .f32⟩
  | 89 => ⟨S50, .f32⟩
  | 90 => ⟨S50, .f32⟩
  | 91 => ⟨S50x50, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S50x50, .f32⟩
  | 99 => ⟨S50x50, .f32⟩
  | 100 => ⟨S50x50, .f32⟩
  | 101 => ⟨S_, .f32⟩
  | 102 => ⟨S_, .f32⟩
  | 103 => ⟨S_, .f32⟩
  | 104 => ⟨S50x50, .f32⟩
  | 105 => ⟨S50x50, .f32⟩
  | 106 => ⟨S_, .f32⟩
  | 107 => ⟨S50x50, .f32⟩
  | 108 => ⟨S50x50, .f32⟩
  | 109 => ⟨S50x50, .f32⟩
  | 110 => ⟨S50x50, .f32⟩
  | 111 => ⟨S_, .f32⟩
  | 112 => ⟨S_, .f32⟩
  | 113 => ⟨S50, .f32⟩
  | 114 => ⟨S50, .f32⟩
  | 115 => ⟨S50, .f32⟩
  | 116 => ⟨S_, .f32⟩
  | 117 => ⟨S_, .f32⟩
  | 118 => ⟨S_, .f32⟩
  | 119 => ⟨S50, .f32⟩
  | 120 => ⟨S50, .f32⟩
  | 121 => ⟨S_, .f32⟩
  | 122 => ⟨S50, .f32⟩
  | 123 => ⟨S50, .f32⟩
  | 124 => ⟨S50, .f32⟩
  | 125 => ⟨S50, .f32⟩
  | 126 => ⟨S50x50, .f32⟩
  | 127 => ⟨S_, .f32⟩
  | _ => ⟨S262144, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S50x50, .f32⟩
  | 6 => ⟨S50x50, .f32⟩
  | 7 => ⟨S50x50, .f32⟩
  | 8 => ⟨S_, .f32⟩
  | 9 => ⟨S_, .f32⟩
  | 10 => ⟨S_, .f32⟩
  | 11 => ⟨S50x50, .f32⟩
  | 12 => ⟨S50x50, .f32⟩
  | 13 => ⟨S_, .f32⟩
  | 14 => ⟨S50x50, .f32⟩
  | 15 => ⟨S50x50, .f32⟩
  | 16 => ⟨S50x50, .f32⟩
  | 17 => ⟨S50x50, .f32⟩
  | 18 => ⟨S_, .f32⟩
  | 19 => ⟨S_, .f32⟩
  | 20 => ⟨S50, .f32⟩
  | 21 => ⟨S50, .f32⟩
  | 22 => ⟨S50, .f32⟩
  | 23 => ⟨S_, .f32⟩
  | 24 => ⟨S_, .f32⟩
  | 25 => ⟨S_, .f32⟩
  | 26 => ⟨S50, .f32⟩
  | 27 => ⟨S50, .f32⟩
  | 28 => ⟨S_, .f32⟩
  | 29 => ⟨S50, .f32⟩
  | 30 => ⟨S50, .f32⟩
  | 31 => ⟨S50, .f32⟩
  | 32 => ⟨S50, .f32⟩
  | 33 => ⟨S2x50, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S2x50, .f32⟩
  | 41 => ⟨S2x50, .f32⟩
  | 42 => ⟨S2x50, .f32⟩
  | 43 => ⟨S_, .f32⟩
  | 44 => ⟨S_, .f32⟩
  | 45 => ⟨S_, .f32⟩
  | 46 => ⟨S2x50, .f32⟩
  | 47 => ⟨S2x50, .f32⟩
  | 48 => ⟨S_, .f32⟩
  | 49 => ⟨S2x50, .f32⟩
  | 50 => ⟨S2x50, .f32⟩
  | 51 => ⟨S2x50, .f32⟩
  | 52 => ⟨S2x50, .f32⟩
  | 53 => ⟨S_, .f32⟩
  | 54 => ⟨S_, .f32⟩
  | 55 => ⟨S2, .f32⟩
  | 56 => ⟨S2, .f32⟩
  | 57 => ⟨S2, .f32⟩
  | 58 => ⟨S_, .f32⟩
  | 59 => ⟨S_, .f32⟩
  | 60 => ⟨S_, .f32⟩
  | 61 => ⟨S2, .f32⟩
  | 62 => ⟨S2, .f32⟩
  | 63 => ⟨S_, .f32⟩
  | 64 => ⟨S2, .f32⟩
  | 65 => ⟨S2, .f32⟩
  | 66 => ⟨S2, .f32⟩
  | 67 => ⟨S2, .f32⟩
  | 68 => ⟨S1x1, .f32⟩
  | 69 => ⟨S262144x2, .f32⟩
  | _ => ⟨S262144, .f32⟩

abbrev hbmTy (i : Nat) : BufTy := match i / 128 with
  | 0 => hbmTy0_0 i
  | 1 => hbmTy0_1 i
  | _ => ⟨S262144, .f32⟩

abbrev bufTy : (tb : Table) → Fin (tcTables nBuf tb) → BufTy
  | .hbm, ⟨i, _⟩ => hbmTy i
  | .local _ .vmem, ⟨0, _⟩ => ⟨S16384x2, .f32⟩
  | .local _ .vmem, ⟨1, _⟩ => ⟨S16384x2, .f32⟩
  | .local _ .vmem, ⟨2, _⟩ => ⟨S1x1, .f32⟩
  | .local _ .vmem, ⟨3, _⟩ => ⟨S50x2, .f32⟩
  | .local _ .vmem, ⟨4, _⟩ => ⟨S50, .f32⟩
  | .local _ .vmem, ⟨5, _⟩ => ⟨S50x50, .f32⟩
  | .local _ .vmem, ⟨6, _⟩ => ⟨S50, .f32⟩
  | .local _ .vmem, ⟨7, _⟩ => ⟨S50x50, .f32⟩
  | .local _ .vmem, ⟨8, _⟩ => ⟨S50, .f32⟩
  | .local _ .vmem, ⟨9, _⟩ => ⟨S50x50, .f32⟩
  | .local _ .vmem, ⟨10, _⟩ => ⟨S50, .f32⟩
  | .local _ .vmem, ⟨11, _⟩ => ⟨S2x50, .f32⟩
  | .local _ .vmem, ⟨12, _⟩ => ⟨S2, .f32⟩
  | .local _ .vmem, ⟨13, _⟩ => ⟨S16384x2, .f32⟩
  | .local _ .vmem, ⟨14, _⟩ => ⟨S16384x2, .f32⟩
  | _, _ => ⟨S262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_7 : Ref sig .tc := ⟨.hbm, 46, rfl⟩
abbrev main_cst_8 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_9 : Ref sig .tc := ⟨.hbm, 57, rfl⟩
abbrev main_v25 : Ref sig .tc := ⟨.hbm, 58, rfl⟩
abbrev main_cst_10 : Ref sig .tc := ⟨.hbm, 59, rfl⟩
abbrev main_v26 : Ref sig .tc := ⟨.hbm, 60, rfl⟩
abbrev main_cst_11 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_12 : Ref sig .tc := ⟨.hbm, 66, rfl⟩
abbrev main_cst_13 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_14 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_15 : Ref sig .tc := ⟨.hbm, 81, rfl⟩
abbrev main_cst_16 : Ref sig .tc := ⟨.hbm, 82, rfl⟩
abbrev main_call7_v0 : Ref sig .tc := ⟨.hbm, 83, rfl⟩
abbrev main_call7_v1 : Ref sig .tc := ⟨.hbm, 84, rfl⟩
abbrev main_call7_v2 : Ref sig .tc := ⟨.hbm, 85, rfl⟩
abbrev main_call7_v3 : Ref sig .tc := ⟨.hbm, 86, rfl⟩
abbrev main_call7_v4 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_17 : Ref sig .tc := ⟨.hbm, 92, rfl⟩
abbrev main_v42 : Ref sig .tc := ⟨.hbm, 93, rfl⟩
abbrev main_cst_18 : Ref sig .tc := ⟨.hbm, 94, rfl⟩
abbrev main_v43 : Ref sig .tc := ⟨.hbm, 95, rfl⟩
abbrev main_cst_19 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_20 : Ref sig .tc := ⟨.hbm, 101, rfl⟩
abbrev main_cst_21 : Ref sig .tc := ⟨.hbm, 102, rfl⟩
abbrev main_call9_v0 : Ref sig .tc := ⟨.hbm, 103, rfl⟩
abbrev main_call9_v1 : Ref sig .tc := ⟨.hbm, 104, rfl⟩
abbrev main_call9_v2 : Ref sig .tc := ⟨.hbm, 105, rfl⟩
abbrev main_call9_v3 : Ref sig .tc := ⟨.hbm, 106, rfl⟩
abbrev main_call9_v4 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_cst_22 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_cst_23 : Ref sig .tc := ⟨.hbm, 116, rfl⟩
abbrev main_cst_24 : Ref sig .tc := ⟨.hbm, 117, rfl⟩
abbrev main_call11_v0 : Ref sig .tc := ⟨.hbm, 118, rfl⟩
abbrev main_call11_v1 : Ref sig .tc := ⟨.hbm, 119, rfl⟩
abbrev main_call11_v2 : Ref sig .tc := ⟨.hbm, 120, rfl⟩
abbrev main_call11_v3 : Ref sig .tc := ⟨.hbm, 121, rfl⟩
abbrev main_call11_v4 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_cst_25 : Ref sig .tc := ⟨.hbm, 127, rfl⟩
abbrev main_v59 : Ref sig .tc := ⟨.hbm, 128, rfl⟩
abbrev main_cst_26 : Ref sig .tc := ⟨.hbm, 129, rfl⟩
abbrev main_v60 : Ref sig .tc := ⟨.hbm, 130, rfl⟩
abbrev main_cst_27 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_cst_28 : Ref sig .tc := ⟨.hbm, 136, rfl⟩
abbrev main_cst_29 : Ref sig .tc := ⟨.hbm, 137, rfl⟩
abbrev main_call13_v0 : Ref sig .tc := ⟨.hbm, 138, rfl⟩
abbrev main_call13_v1 : Ref sig .tc := ⟨.hbm, 139, rfl⟩
abbrev main_call13_v2 : Ref sig .tc := ⟨.hbm, 140, rfl⟩
abbrev main_call13_v3 : Ref sig .tc := ⟨.hbm, 141, rfl⟩
abbrev main_call13_v4 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_cst_30 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_cst_31 : Ref sig .tc := ⟨.hbm, 151, rfl⟩
abbrev main_cst_32 : Ref sig .tc := ⟨.hbm, 152, rfl⟩
abbrev main_call15_v0 : Ref sig .tc := ⟨.hbm, 153, rfl⟩
abbrev main_call15_v1 : Ref sig .tc := ⟨.hbm, 154, rfl⟩
abbrev main_call15_v2 : Ref sig .tc := ⟨.hbm, 155, rfl⟩
abbrev main_call15_v3 : Ref sig .tc := ⟨.hbm, 156, rfl⟩
abbrev main_call15_v4 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_cst_33 : Ref sig .tc := ⟨.hbm, 162, rfl⟩
abbrev main_v76 : Ref sig .tc := ⟨.hbm, 163, rfl⟩
abbrev main_cst_34 : Ref sig .tc := ⟨.hbm, 164, rfl⟩
abbrev main_v77 : Ref sig .tc := ⟨.hbm, 165, rfl⟩
abbrev main_cst_35 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_cst_36 : Ref sig .tc := ⟨.hbm, 171, rfl⟩
abbrev main_cst_37 : Ref sig .tc := ⟨.hbm, 172, rfl⟩
abbrev main_call17_v0 : Ref sig .tc := ⟨.hbm, 173, rfl⟩
abbrev main_call17_v1 : Ref sig .tc := ⟨.hbm, 174, rfl⟩
abbrev main_call17_v2 : Ref sig .tc := ⟨.hbm, 175, rfl⟩
abbrev main_call17_v3 : Ref sig .tc := ⟨.hbm, 176, rfl⟩
abbrev main_call17_v4 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_cst_38 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_cst_39 : Ref sig .tc := ⟨.hbm, 186, rfl⟩
abbrev main_cst_40 : Ref sig .tc := ⟨.hbm, 187, rfl⟩
abbrev main_call19_v0 : Ref sig .tc := ⟨.hbm, 188, rfl⟩
abbrev main_call19_v1 : Ref sig .tc := ⟨.hbm, 189, rfl⟩
abbrev main_call19_v2 : Ref sig .tc := ⟨.hbm, 190, rfl⟩
abbrev main_call19_v3 : Ref sig .tc := ⟨.hbm, 191, rfl⟩
abbrev main_call19_v4 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_v92 : Ref sig .tc := ⟨.hbm, 196, rfl⟩
abbrev main_v93 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S50x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x50 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16384x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S262144x2_S_d0_1 : S262144x2.ReducesTo [0, 1] S_
  h_S_ : 0 < S_.numel
  reducesTo_S50x2_S_d0_1 : S50x2.ReducesTo [0, 1] S_
  bcast_S_S50x2 : S_.BroadcastsInDim S50x2 (![] : Fin 0 → Fin S50x2.rank)
  bcast_S_S50 : S_.BroadcastsInDim S50 (![] : Fin 0 → Fin S50.rank)
  reducesTo_S50x50_S_d0_1 : S50x50.ReducesTo [0, 1] S_
  bcast_S_S50x50 : S_.BroadcastsInDim S50x50 (![] : Fin 0 → Fin S50x50.rank)
  reducesTo_S2x50_S_d0_1 : S2x50.ReducesTo [0, 1] S_
  bcast_S_S2x50 : S_.BroadcastsInDim S2x50 (![] : Fin 0 → Fin S2x50.rank)
  bcast_S_S2 : S_.BroadcastsInDim S2 (![] : Fin 0 → Fin S2.rank)
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S16384x2_S16384x2_0_0 : ∀ a, (![0, 0] : Fin 2 → Nat) a + S16384x2.size a ≤ S16384x2.size a
  h_S16384x2 : 0 < S16384x2.numel
  shapeCasts_S16384x2_S16384x2 : S16384x2.ShapeCasts S16384x2
  inb_S50x2_S50x2_0_0 : ∀ a, (![0, 0] : Fin 2 → Nat) a + S50x2.size a ≤ S50x2.size a
  h_S50x2 : 0 < S50x2.numel
  shapeCasts_S50x2_S50x2 : S50x2.ShapeCasts S50x2
  transposes_S50x2_p1_0_S2x50 : S50x2.Transposes [1, 0] S2x50
  inb_S50_S50_0 : ∀ a, (![0] : Fin 1 → Nat) a + S50.size a ≤ S50.size a
  h_S50 : 0 < S50.numel
  shapeCasts_S50_S50 : S50.ShapeCasts S50
  shapeCasts_S50_S1x50 : S50.ShapeCasts S1x50
  broadcasts_S1x50_S16384x50 : S1x50.Broadcasts S16384x50
  inb_S50x50_S50x50_0_0 : ∀ a, (![0, 0] : Fin 2 → Nat) a + S50x50.size a ≤ S50x50.size a
  h_S50x50 : 0 < S50x50.numel
  shapeCasts_S50x50_S50x50 : S50x50.ShapeCasts S50x50
  transposes_S50x50_p1_0_S50x50 : S50x50.Transposes [1, 0] S50x50
  inb_S2x50_S2x50_0_0 : ∀ a, (![0, 0] : Fin 2 → Nat) a + S2x50.size a ≤ S2x50.size a
  h_S2x50 : 0 < S2x50.numel
  shapeCasts_S2x50_S2x50 : S2x50.ShapeCasts S2x50
  transposes_S2x50_p1_0_S50x2 : S2x50.Transposes [1, 0] S50x2
  inb_S2_S2_0 : ∀ a, (![0] : Fin 1 → Nat) a + S2.size a ≤ S2.size a
  h_S2 : 0 < S2.numel
  shapeCasts_S2_S2 : S2.ShapeCasts S2
  shapeCasts_S2_S1x2 : S2.ShapeCasts S1x2
  broadcasts_S1x2_S16384x2 : S1x2.Broadcasts S16384x2
  dot_S16384x2_S2x50_S16384x50_1_0_0_1_n_n_wf : DotDims.WF S16384x2 S2x50 S16384x50 [1] [0] [0] [1] [] []
  dot_S16384x50_S50x50_S16384x50_1_0_0_1_n_n_wf : DotDims.WF S16384x50 S50x50 S16384x50 [1] [0] [0] [1] [] []
  dot_S16384x50_S50x2_S16384x2_1_0_0_1_n_n_wf : DotDims.WF S16384x50 S50x2 S16384x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x2.size a ≤ S262144x2.size a
  hwx0_0 : ∀ i : grid0.Coords, EltTy.bits .f32 = 32 ∨ (Rect.block (s := S262144x2) S16384x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x2.size a ≤ S50x2.size a
  hwx0_2 : ∀ i : grid0.Coords, EltTy.bits .f32 = 32 ∨ (Rect.block (s := S50x2) S50x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50.size a ≤ S50.size a
  hwx0_3 : ∀ i : grid0.Coords, EltTy.bits .f32 = 32 ∨ (Rect.block (s := S50) S50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x50.size a ≤ S50x50.size a
  hwx0_4 : ∀ i : grid0.Coords, EltTy.bits .f32 = 32 ∨ (Rect.block (s := S50x50) S50x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50.size a ≤ S50.size a
  hwx0_5 : ∀ i : grid0.Coords, EltTy.bits .f32 = 32 ∨ (Rect.block (s := S50) S50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S50x50.size a ≤ S50x50.size a
  hwx0_6 : ∀ i : grid0.Coords, EltTy.bits .f32 = 32 ∨ (Rect.block (s := S50x50) S50x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50.size a ≤ S50.size a
  hwx0_7 : ∀ i : grid0.Coords, EltTy.bits .f32 = 32 ∨ (Rect.block (s := S50) S50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S50x50.size a ≤ S50x50.size a
  hwx0_8 : ∀ i : grid0.Coords, EltTy.bits .f32 = 32 ∨ (Rect.block (s := S50x50) S50x50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S50.size a ≤ S50.size a
  hwx0_9 : ∀ i : grid0.Coords, EltTy.bits .f32 = 32 ∨ (Rect.block (s := S50) S50.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x50.size a ≤ S2x50.size a
  hwx0_10 : ∀ i : grid0.Coords, EltTy.bits .f32 = 32 ∨ (Rect.block (s := S2x50) S2x50.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2.size a ≤ S2.size a
  hwx0_11 : ∀ i : grid0.Coords, EltTy.bits .f32 = 32 ∨ (Rect.block (s := S2) S2.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16384x2.size a ≤ S262144x2.size a
  hwx0_12 : ∀ i : grid0.Coords, EltTy.bits .f32 = 32 ∨ (Rect.block (s := S262144x2) S16384x2.size (cc0_transform_12 i) (hinb0_12 i)).WholeWords (EltTy.packing .f32)

variable [Facts₀]

def dot_S16384x2_S2x50_S16384x50_1_0_0_1_n_n : DotDims S16384x2 S2x50 S16384x50 where
  lhsContracting := [1]
  rhsContracting := [0]
  lhsNonContracting := [0]
  rhsNonContracting := [1]
  lhsBatch := []
  rhsBatch := []
  wf := dot_S16384x2_S2x50_S16384x50_1_0_0_1_n_n_wf
def dot_S16384x50_S50x50_S16384x50_1_0_0_1_n_n : DotDims S16384x50 S50x50 S16384x50 where
  lhsContracting := [1]
  rhsContracting := [0]
  lhsNonContracting := [0]
  rhsNonContracting := [1]
  lhsBatch := []
  rhsBatch := []
  wf := dot_S16384x50_S50x50_S16384x50_1_0_0_1_n_n_wf
def dot_S16384x50_S50x2_S16384x2_1_0_0_1_n_n : DotDims S16384x50 S50x2 S16384x2 where
  lhsContracting := [1]
  rhsContracting := [0]
  lhsNonContracting := [0]
  rhsNonContracting := [1]
  lhsBatch := []
  rhsBatch := []
  wf := dot_S16384x50_S50x2_S16384x2_1_0_0_1_n_n_wf

abbrev win0_0 : Pipeline.Window sig grid0 :=
  Pipeline.Window.ofSpec (Memref.whole main_v2) S16384x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v92) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S50x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S50x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50) S50x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v57) S50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v67) S50x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v74) S50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v84) S2x50.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v91) S2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v93) S16384x2.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S262144 : Shape := ⟨1, ![262144]⟩
abbrev S50x2 : Shape := ⟨2, ![50, 2]⟩
abbrev S50 : Shape := ⟨1, ![50]⟩
abbrev S50x50 : Shape := ⟨2, ![50, 50]⟩
abbrev S2x50 : Shape := ⟨2, ![2, 50]⟩
abbrev S2 : Shape := ⟨1, ![2]⟩
abbrev S262144x1 : Shape := ⟨2, ![262144, 1]⟩
abbrev S262144x2 : Shape := ⟨2, ![262144, 2]⟩
abbrev S_ : Shape := ⟨0, ![]⟩
abbrev S262144x50 : Shape := ⟨2, ![262144, 50]⟩
abbrev S1x50 : Shape := ⟨2, ![1, 50]⟩
abbrev S1x2 : Shape := ⟨2, ![1, 2]⟩

abbrev nBuf : Space → Nat
  | .hbm => 356
  | .vmem => 0
  | .smem => 0
  | _ => 0

abbrev hbmTy0_0 (i : Nat) : BufTy := match i % 128 with
  | 0 => ⟨S262144, .f32⟩
  | 1 => ⟨S262144, .f32⟩
  | 2 => ⟨S50x2, .f32⟩
  | 3 => ⟨S50, .f32⟩
  | 4 => ⟨S50x50, .f32⟩
  | 5 => ⟨S50, .f32⟩
  | 6 => ⟨S50x50, .f32⟩
  | 7 => ⟨S50, .f32⟩
  | 8 => ⟨S50x50, .f32⟩
  | 9 => ⟨S50, .f32⟩
  | 10 => ⟨S2x50, .f32⟩
  | 11 => ⟨S2, .f32⟩
  | 12 => ⟨S262144x1, .f32⟩
  | 13 => ⟨S262144x1, .f32⟩
  | 14 => ⟨S262144x2, .f32⟩
  | 15 => ⟨S262144x2, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S262144x2, .f32⟩
  | 23 => ⟨S262144x2, .f32⟩
  | 24 => ⟨S262144x2, .f32⟩
  | 25 => ⟨S_, .f32⟩
  | 26 => ⟨S_, .f32⟩
  | 27 => ⟨S_, .f32⟩
  | 28 => ⟨S262144x2, .f32⟩
  | 29 => ⟨S262144x2, .f32⟩
  | 30 => ⟨S_, .f32⟩
  | 31 => ⟨S262144x2, .f32⟩
  | 32 => ⟨S262144x2, .f32⟩
  | 33 => ⟨S262144x2, .f32⟩
  | 34 => ⟨S262144x2, .f32⟩
  | 35 => ⟨S262144x2, .f32⟩
  | 36 => ⟨S262144x2, .f32⟩
  | 37 => ⟨S50x2, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S50x2, .f32⟩
  | 45 => ⟨S50x2, .f32⟩
  | 46 => ⟨S50x2, .f32⟩
  | 47 => ⟨S_, .f32⟩
  | 48 => ⟨S_, .f32⟩
  | 49 => ⟨S_, .f32⟩
  | 50 => ⟨S50x2, .f32⟩
  | 51 => ⟨S50x2, .f32⟩
  | 52 => ⟨S_, .f32⟩
  | 53 => ⟨S50x2, .f32⟩
  | 54 => ⟨S50x2, .f32⟩
  | 55 => ⟨S50x2, .f32⟩
  | 56 => ⟨S50x2, .f32⟩
  | 57 => ⟨S50x2, .f32⟩
  | 58 => ⟨S50x2, .f32⟩
  | 59 => ⟨S_, .f32⟩
  | 60 => ⟨S50, .f32⟩
  | 61 => ⟨S50, .f32⟩
  | 62 => ⟨S50, .f32⟩
  | 63 => ⟨S_, .f32⟩
  | 64 => ⟨S_, .f32⟩
  | 65 => ⟨S_, .f32⟩
  | 66 => ⟨S50, .f32⟩
  | 67 => ⟨S50, .f32⟩
  | 68 => ⟨S_, .f32⟩
  | 69 => ⟨S50, .f32⟩
  | 70 => ⟨S50, .f32⟩
  | 71 => ⟨S50, .f32⟩
  | 72 => ⟨S50, .f32⟩
  | 73 => ⟨S50, .f32⟩
  | 74 => ⟨S50, .f32⟩
  | 75 => ⟨S2x50, .f32⟩
  | 76 => ⟨S262144x50, .f32⟩
  | 77 => ⟨S1x50, .f32⟩
  | 78 => ⟨S262144x50, .f32⟩
  | 79 => ⟨S262144x50, .f32⟩
  | 80 => ⟨S_, .f32⟩
  | 81 => ⟨S_, .f32⟩
  | 82 => ⟨S_, .f32⟩
  | 83 => ⟨S262144x50, .f32⟩
  | 84 => ⟨S262144x50, .f32⟩
  | 85 => ⟨S_, .f32⟩
  | 86 => ⟨S262144x50, .f32⟩
  | 87 => ⟨S262144x50, .f32⟩
  | 88 => ⟨S_, .f32⟩
  | 89 => ⟨S262144x50, .f32⟩
  | 90 => ⟨S262144x50, .f32⟩
  | 91 => ⟨S262144x50, .f32⟩
  | 92 => ⟨S_, .f32⟩
  | 93 => ⟨S_, .f32⟩
  | 94 => ⟨S_, .f32⟩
  | 95 => ⟨S262144x50, .f32⟩
  | 96 => ⟨S262144x50, .f32⟩
  | 97 => ⟨S_, .f32⟩
  | 98 => ⟨S262144x50, .f32⟩
  | 99 => ⟨S262144x50, .f32⟩
  | 100 => ⟨S_, .f32⟩
  | 101 => ⟨S262144x50, .f32⟩
  | 102 => ⟨S262144x50, .f32⟩
  | 103 => ⟨S262144x50, .f32⟩
  | 104 => ⟨S262144x50, .f32⟩
  | 105 => ⟨S50x50, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S50x50, .f32⟩
  | 113 => ⟨S50x50, .f32⟩
  | 114 => ⟨S50x50, .f32⟩
  | 115 => ⟨S_, .f32⟩
  | 116 => ⟨S_, .f32⟩
  | 117 => ⟨S_, .f32⟩
  | 118 => ⟨S50x50, .f32⟩
  | 119 => ⟨S50x50, .f32⟩
  | 120 => ⟨S_, .f32⟩
  | 121 => ⟨S50x50, .f32⟩
  | 122 => ⟨S50x50, .f32⟩
  | 123 => ⟨S50x50, .f32⟩
  | 124 => ⟨S50x50, .f32⟩
  | 125 => ⟨S50x50, .f32⟩
  | 126 => ⟨S50x50, .f32⟩
  | 127 => ⟨S_, .f32⟩
  | _ => ⟨S262144, .f32⟩

abbrev hbmTy0_1 (i : Nat) : BufTy := match i % 128 with
  | 0 => ⟨S_, .f32⟩
  | 1 => ⟨S50, .f32⟩
  | 2 => ⟨S50, .f32⟩
  | 3 => ⟨S50, .f32⟩
  | 4 => ⟨S_, .f32⟩
  | 5 => ⟨S_, .f32⟩
  | 6 => ⟨S_, .f32⟩
  | 7 => ⟨S50, .f32⟩
  | 8 => ⟨S50, .f32⟩
  | 9 => ⟨S_, .f32⟩
  | 10 => ⟨S50, .f32⟩
  | 11 => ⟨S50, .f32⟩
  | 12 => ⟨S50, .f32⟩
  | 13 => ⟨S50, .f32⟩
  | 14 => ⟨S50, .f32⟩
  | 15 => ⟨S50, .f32⟩
  | 16 => ⟨S50x50, .f32⟩
  | 17 => ⟨S262144x50, .f32⟩
  | 18 => ⟨S1x50, .f32⟩
  | 19 => ⟨S262144x50, .f32⟩
  | 20 => ⟨S262144x50, .f32⟩
  | 21 => ⟨S_, .f32⟩
  | 22 => ⟨S_, .f32⟩
  | 23 => ⟨S_, .f32⟩
  | 24 => ⟨S262144x50, .f32⟩
  | 25 => ⟨S262144x50, .f32⟩
  | 26 => ⟨S_, .f32⟩
  | 27 => ⟨S262144x50, .f32⟩
  | 28 => ⟨S262144x50, .f32⟩
  | 29 => ⟨S_, .f32⟩
  | 30 => ⟨S262144x50, .f32⟩
  | 31 => ⟨S262144x50, .f32⟩
  | 32 => ⟨S262144x50, .f32⟩
  | 33 => ⟨S_, .f32⟩
  | 34 => ⟨S_, .f32⟩
  | 35 => ⟨S_, .f32⟩
  | 36 => ⟨S262144x50, .f32⟩
  | 37 => ⟨S262144x50, .f32⟩
  | 38 => ⟨S_, .f32⟩
  | 39 => ⟨S262144x50, .f32⟩
  | 40 => ⟨S262144x50, .f32⟩
  | 41 => ⟨S_, .f32⟩
  | 42 => ⟨S262144x50, .f32⟩
  | 43 => ⟨S262144x50, .f32⟩
  | 44 => ⟨S262144x50, .f32⟩
  | 45 => ⟨S262144x50, .f32⟩
  | 46 => ⟨S50x50, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S50x50, .f32⟩
  | 54 => ⟨S50x50, .f32⟩
  | 55 => ⟨S50x50, .f32⟩
  | 56 => ⟨S_, .f32⟩
  | 57 => ⟨S_, .f32⟩
  | 58 => ⟨S_, .f32⟩
  | 59 => ⟨S50x50, .f32⟩
  | 60 => ⟨S50x50, .f32⟩
  | 61 => ⟨S_, .f32⟩
  | 62 => ⟨S50x50, .f32⟩
  | 63 => ⟨S50x50, .f32⟩
  | 64 => ⟨S50x50, .f32⟩
  | 65 => ⟨S50x50, .f32⟩
  | 66 => ⟨S50x50, .f32⟩
  | 67 => ⟨S50x50, .f32⟩
  | 68 => ⟨S_, .f32⟩
  | 69 => ⟨S_, .f32⟩
  | 70 => ⟨S50, .f32⟩
  | 71 => ⟨S50, .f32⟩
  | 72 => ⟨S50, .f32⟩
  | 73 => ⟨S_, .f32⟩
  | 74 => ⟨S_, .f32⟩
  | 75 => ⟨S_, .f32⟩
  | 76 => ⟨S50, .f32⟩
  | 77 => ⟨S50, .f32⟩
  | 78 => ⟨S_, .f32⟩
  | 79 => ⟨S50, .f32⟩
  | 80 => ⟨S50, .f32⟩
  | 81 => ⟨S50, .f32⟩
  | 82 => ⟨S50, .f32⟩
  | 83 => ⟨S50, .f32⟩
  | 84 => ⟨S50, .f32⟩
  | 85 => ⟨S50x50, .f32⟩
  | 86 => ⟨S262144x50, .f32⟩
  | 87 => ⟨S1x50, .f32⟩
  | 88 => ⟨S262144x50, .f32⟩
  | 89 => ⟨S262144x50, .f32⟩
  | 90 => ⟨S_, .f32⟩
  | 91 => ⟨S_, .f32⟩
  | 92 => ⟨S_, .f32⟩
  | 93 => ⟨S262144x50, .f32⟩
  | 94 => ⟨S262144x50, .f32⟩
  | 95 => ⟨S_, .f32⟩
  | 96 => ⟨S262144x50, .f32⟩
  | 97 => ⟨S262144x50, .f32⟩
  | 98 => ⟨S_, .f32⟩
  | 99 => ⟨S262144x50, .f32⟩
  | 100 => ⟨S262144x50, .f32⟩
  | 101 => ⟨S262144x50, .f32⟩
  | 102 => ⟨S_, .f32⟩
  | 103 => ⟨S_, .f32⟩
  | 104 => ⟨S_, .f32⟩
  | 105 => ⟨S262144x50, .f32⟩
  | 106 => ⟨S262144x50, .f32⟩
  | 107 => ⟨S_, .f32⟩
  | 108 => ⟨S262144x50, .f32⟩
  | 109 => ⟨S262144x50, .f32⟩
  | 110 => ⟨S_, .f32⟩
  | 111 => ⟨S262144x50, .f32⟩
  | 112 => ⟨S262144x50, .f32⟩
  | 113 => ⟨S262144x50, .f32⟩
  | 114 => ⟨S262144x50, .f32⟩
  | 115 => ⟨S50x50, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S50x50, .f32⟩
  | 123 => ⟨S50x50, .f32⟩
  | 124 => ⟨S50x50, .f32⟩
  | 125 => ⟨S_, .f32⟩
  | 126 => ⟨S_, .f32⟩
  | 127 => ⟨S_, .f32⟩
  | _ => ⟨S262144, .f32⟩

abbrev hbmTy0_2 (i : Nat) : BufTy := match i % 128 with
  | 0 => ⟨S50x50, .f32⟩
  | 1 => ⟨S50x50, .f32⟩
  | 2 => ⟨S_, .f32⟩
  | 3 => ⟨S50x50, .f32⟩
  | 4 => ⟨S50x50, .f32⟩
  | 5 => ⟨S50x50, .f32⟩
  | 6 => ⟨S50x50, .f32⟩
  | 7 => ⟨S50x50, .f32⟩
  | 8 => ⟨S50x50, .f32⟩
  | 9 => ⟨S_, .f32⟩
  | 10 => ⟨S_, .f32⟩
  | 11 => ⟨S50, .f32⟩
  | 12 => ⟨S50, .f32⟩
  | 13 => ⟨S50, .f32⟩
  | 14 => ⟨S_, .f32⟩
  | 15 => ⟨S_, .f32⟩
  | 16 => ⟨S_, .f32⟩
  | 17 => ⟨S50, .f32⟩
  | 18 => ⟨S50, .f32⟩
  | 19 => ⟨S_, .f32⟩
  | 20 => ⟨S50, .f32⟩
  | 21 => ⟨S50, .f32⟩
  | 22 => ⟨S50, .f32⟩
  | 23 => ⟨S50, .f32⟩
  | 24 => ⟨S50, .f32⟩
  | 25 => ⟨S50, .f32⟩
  | 26 => ⟨S50x50, .f32⟩
  | 27 => ⟨S262144x50, .f32⟩
  | 28 => ⟨S1x50, .f32⟩
  | 29 => ⟨S262144x50, .f32⟩
  | 30 => ⟨S262144x50, .f32⟩
  | 31 => ⟨S_, .f32⟩
  | 32 => ⟨S_, .f32⟩
  | 33 => ⟨S_, .f32⟩
  | 34 => ⟨S262144x50, .f32⟩
  | 35 => ⟨S262144x50, .f32⟩
  | 36 => ⟨S_, .f32⟩
  | 37 => ⟨S262144x50, .f32⟩
  | 38 => ⟨S262144x50, .f32⟩
  | 39 => ⟨S_, .f32⟩
  | 40 => ⟨S262144x50, .f32⟩
  | 41 => ⟨S262144x50, .f32⟩
  | 42 => ⟨S262144x50, .f32⟩
  | 43 => ⟨S_, .f32⟩
  | 44 => ⟨S_, .f32⟩
  | 45 => ⟨S_, .f32⟩
  | 46 => ⟨S262144x50, .f32⟩
  | 47 => ⟨S262144x50, .f32⟩
  | 48 => ⟨S_, .f32⟩
  | 49 => ⟨S262144x50, .f32⟩
  | 50 => ⟨S262144x50, .f32⟩
  | 51 => ⟨S_, .f32⟩
  | 52 => ⟨S262144x50, .f32⟩
  | 53 => ⟨S262144x50, .f32⟩
  | 54 => ⟨S262144x50, .f32⟩
  | 55 => ⟨S262144x50, .f32⟩
  | 56 => ⟨S2x50, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S2x50, .f32⟩
  | 64 => ⟨S2x50, .f32⟩
  | 65 => ⟨S2x50, .f32⟩
  | 66 => ⟨S_, .f32⟩
  | 67 => ⟨S_, .f32⟩
  | 68 => ⟨S_, .f32⟩
  | 69 => ⟨S2x50, .f32⟩
  | 70 => ⟨S2x50, .f32⟩
  | 71 => ⟨S_, .f32⟩
  | 72 => ⟨S2x50, .f32⟩
  | 73 => ⟨S2x50, .f32⟩
  | 74 => ⟨S2x50, .f32⟩
  | 75 => ⟨S2x50, .f32⟩
  | 76 => ⟨S2x50, .f32⟩
  | 77 => ⟨S2x50, .f32⟩
  | 78 => ⟨S_, .f32⟩
  | 79 => ⟨S_, .f32⟩
  | 80 => ⟨S2, .f32⟩
  | 81 => ⟨S2, .f32⟩
  | 82 => ⟨S2, .f32⟩
  | 83 => ⟨S_, .f32⟩
  | 84 => ⟨S_, .f32⟩
  | 85 => ⟨S_, .f32⟩
  | 86 => ⟨S2, .f32⟩
  | 87 => ⟨S2, .f32⟩
  | 88 => ⟨S_, .f32⟩
  | 89 => ⟨S2, .f32⟩
  | 90 => ⟨S2, .f32⟩
  | 91 => ⟨S2, .f32⟩
  | 92 => ⟨S2, .f32⟩
  | 93 => ⟨S2, .f32⟩
  | 94 => ⟨S2, .f32⟩
  | 95 => ⟨S50x2, .f32⟩
  | 96 => ⟨S262144x2, .f32⟩
  | 97 => ⟨S1x2, .f32⟩
  | 98 => ⟨S262144x2, .f32⟩
  | 99 => ⟨S262144x2, .f32⟩
  | _ => ⟨S262144, .f32⟩

abbrev hbmTy (i : Nat) : BufTy := match i / 128 with
  | 0 => hbmTy0_0 i
  | 1 => hbmTy0_1 i
  | 2 => hbmTy0_2 i
  | _ => ⟨S262144, .f32⟩

abbrev bufTy : (tb : Table) → Fin (tcTables nBuf tb) → BufTy
  | .hbm, ⟨i, _⟩ => hbmTy i
  | _, _ => ⟨S262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_cst_5 : Ref sig .tc := ⟨.hbm, 40, rfl⟩
abbrev main_v17 : Ref sig .tc := ⟨.hbm, 41, rfl⟩
abbrev main_cst_6 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_7 : Ref sig .tc := ⟨.hbm, 47, rfl⟩
abbrev main_cst_8 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_9 : Ref sig .tc := ⟨.hbm, 63, rfl⟩
abbrev main_cst_10 : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_11 : Ref sig .tc := ⟨.hbm, 80, rfl⟩
abbrev main_cst_12 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_v41 : Ref sig .tc := ⟨.hbm, 87, rfl⟩
abbrev main_cst_13 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_14 : Ref sig .tc := ⟨.hbm, 92, rfl⟩
abbrev main_cst_15 : Ref sig .tc := ⟨.hbm, 93, rfl⟩
abbrev main_call8_v0 : Ref sig .tc := ⟨.hbm, 94, rfl⟩
abbrev main_call8_v1 : Ref sig .tc := ⟨.hbm, 95, rfl⟩
abbrev main_call8_v2 : Ref sig .tc := ⟨.hbm, 96, rfl⟩
abbrev main_call8_v3 : Ref sig .tc := ⟨.hbm, 97, rfl⟩
abbrev main_call8_v4 : Ref sig .tc := ⟨.hbm, 98, rfl⟩
abbrev main_v45 : Ref sig .tc := ⟨.hbm, 99, rfl⟩
abbrev main_cst_16 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst_17 : Ref sig .tc := ⟨.hbm, 106, rfl⟩
abbrev main_v51 : Ref sig .tc := ⟨.hbm, 107, rfl⟩
abbrev main_cst_18 : Ref sig .tc := ⟨.hbm, 108, rfl⟩
abbrev main_v52 : Ref sig .tc := ⟨.hbm, 109, rfl⟩
abbrev main_cst_19 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_cst_20 : Ref sig .tc := ⟨.hbm, 115, rfl⟩
abbrev main_cst_21 : Ref sig .tc := ⟨.hbm, 116, rfl⟩
abbrev main_call10_v0 : Ref sig .tc := ⟨.hbm, 117, rfl⟩
abbrev main_call10_v1 : Ref sig .tc := ⟨.hbm, 118, rfl⟩
abbrev main_call10_v2 : Ref sig .tc := ⟨.hbm, 119, rfl⟩
abbrev main_call10_v3 : Ref sig .tc := ⟨.hbm, 120, rfl⟩
abbrev main_call10_v4 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_cst_22 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_cst_23 : Ref sig .tc := ⟨.hbm, 132, rfl⟩
abbrev main_cst_24 : Ref sig .tc := ⟨.hbm, 133, rfl⟩
abbrev main_call12_v0 : Ref sig .tc := ⟨.hbm, 134, rfl⟩
abbrev main_call12_v1 : Ref sig .tc := ⟨.hbm, 135, rfl⟩
abbrev main_call12_v2 : Ref sig .tc := ⟨.hbm, 136, rfl⟩
abbrev main_call12_v3 : Ref sig .tc := ⟨.hbm, 137, rfl⟩
abbrev main_call12_v4 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_cst_25 : Ref sig .tc := ⟨.hbm, 149, rfl⟩
abbrev main_cst_26 : Ref sig .tc := ⟨.hbm, 150, rfl⟩
abbrev main_call13_v0 : Ref sig .tc := ⟨.hbm, 151, rfl⟩
abbrev main_call13_v1 : Ref sig .tc := ⟨.hbm, 152, rfl⟩
abbrev main_call13_v2 : Ref sig .tc := ⟨.hbm, 153, rfl⟩
abbrev main_call13_v3 : Ref sig .tc := ⟨.hbm, 154, rfl⟩
abbrev main_call13_v4 : Ref sig .tc := ⟨.hbm, 155, rfl⟩
abbrev main_v76 : Ref sig .tc := ⟨.hbm, 156, rfl⟩
abbrev main_cst_27 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_cst_28 : Ref sig .tc := ⟨.hbm, 161, rfl⟩
abbrev main_cst_29 : Ref sig .tc := ⟨.hbm, 162, rfl⟩
abbrev main_call15_v0 : Ref sig .tc := ⟨.hbm, 163, rfl⟩
abbrev main_call15_v1 : Ref sig .tc := ⟨.hbm, 164, rfl⟩
abbrev main_call15_v2 : Ref sig .tc := ⟨.hbm, 165, rfl⟩
abbrev main_call15_v3 : Ref sig .tc := ⟨.hbm, 166, rfl⟩
abbrev main_call15_v4 : Ref sig .tc := ⟨.hbm, 167, rfl⟩
abbrev main_v80 : Ref sig .tc := ⟨.hbm, 168, rfl⟩
abbrev main_cst_30 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_cst_31 : Ref sig .tc := ⟨.hbm, 175, rfl⟩
abbrev main_v86 : Ref sig .tc := ⟨.hbm, 176, rfl⟩
abbrev main_cst_32 : Ref sig .tc := ⟨.hbm, 177, rfl⟩
abbrev main_v87 : Ref sig .tc := ⟨.hbm, 178, rfl⟩
abbrev main_cst_33 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_cst_34 : Ref sig .tc := ⟨.hbm, 184, rfl⟩
abbrev main_cst_35 : Ref sig .tc := ⟨.hbm, 185, rfl⟩
abbrev main_call17_v0 : Ref sig .tc := ⟨.hbm, 186, rfl⟩
abbrev main_call17_v1 : Ref sig .tc := ⟨.hbm, 187, rfl⟩
abbrev main_call17_v2 : Ref sig .tc := ⟨.hbm, 188, rfl⟩
abbrev main_call17_v3 : Ref sig .tc := ⟨.hbm, 189, rfl⟩
abbrev main_call17_v4 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_cst_36 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_cst_37 : Ref sig .tc := ⟨.hbm, 201, rfl⟩
abbrev main_cst_38 : Ref sig .tc := ⟨.hbm, 202, rfl⟩
abbrev main_call19_v0 : Ref sig .tc := ⟨.hbm, 203, rfl⟩
abbrev main_call19_v1 : Ref sig .tc := ⟨.hbm, 204, rfl⟩
abbrev main_call19_v2 : Ref sig .tc := ⟨.hbm, 205, rfl⟩
abbrev main_call19_v3 : Ref sig .tc := ⟨.hbm, 206, rfl⟩
abbrev main_call19_v4 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_cst_39 : Ref sig .tc := ⟨.hbm, 218, rfl⟩
abbrev main_cst_40 : Ref sig .tc := ⟨.hbm, 219, rfl⟩
abbrev main_call20_v0 : Ref sig .tc := ⟨.hbm, 220, rfl⟩
abbrev main_call20_v1 : Ref sig .tc := ⟨.hbm, 221, rfl⟩
abbrev main_call20_v2 : Ref sig .tc := ⟨.hbm, 222, rfl⟩
abbrev main_call20_v3 : Ref sig .tc := ⟨.hbm, 223, rfl⟩
abbrev main_call20_v4 : Ref sig .tc := ⟨.hbm, 224, rfl⟩
abbrev main_v111 : Ref sig .tc := ⟨.hbm, 225, rfl⟩
abbrev main_cst_41 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_cst_42 : Ref sig .tc := ⟨.hbm, 230, rfl⟩
abbrev main_cst_43 : Ref sig .tc := ⟨.hbm, 231, rfl⟩
abbrev main_call22_v0 : Ref sig .tc := ⟨.hbm, 232, rfl⟩
abbrev main_call22_v1 : Ref sig .tc := ⟨.hbm, 233, rfl⟩
abbrev main_call22_v2 : Ref sig .tc := ⟨.hbm, 234, rfl⟩
abbrev main_call22_v3 : Ref sig .tc := ⟨.hbm, 235, rfl⟩
abbrev main_call22_v4 : Ref sig .tc := ⟨.hbm, 236, rfl⟩
abbrev main_v115 : Ref sig .tc := ⟨.hbm, 237, rfl⟩
abbrev main_cst_44 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_cst_45 : Ref sig .tc := ⟨.hbm, 244, rfl⟩
abbrev main_v121 : Ref sig .tc := ⟨.hbm, 245, rfl⟩
abbrev main_cst_46 : Ref sig .tc := ⟨.hbm, 246, rfl⟩
abbrev main_v122 : Ref sig .tc := ⟨.hbm, 247, rfl⟩
abbrev main_cst_47 : Ref sig .tc := ⟨.hbm, 248, rfl⟩
abbrev main_v123 : Ref sig .tc := ⟨.hbm, 249, rfl⟩
abbrev main_v124 : Ref sig .tc := ⟨.hbm, 250, rfl⟩
abbrev main_v125 : Ref sig .tc := ⟨.hbm, 251, rfl⟩
abbrev main_v126 : Ref sig .tc := ⟨.hbm, 252, rfl⟩
abbrev main_cst_48 : Ref sig .tc := ⟨.hbm, 253, rfl⟩
abbrev main_cst_49 : Ref sig .tc := ⟨.hbm, 254, rfl⟩
abbrev main_call24_v0 : Ref sig .tc := ⟨.hbm, 255, rfl⟩
abbrev main_call24_v1 : Ref sig .tc := ⟨.hbm, 256, rfl⟩
abbrev main_call24_v2 : Ref sig .tc := ⟨.hbm, 257, rfl⟩
abbrev main_call24_v3 : Ref sig .tc := ⟨.hbm, 258, rfl⟩
abbrev main_call24_v4 : Ref sig .tc := ⟨.hbm, 259, rfl⟩
abbrev main_v127 : Ref sig .tc := ⟨.hbm, 260, rfl⟩
abbrev main_v128 : Ref sig .tc := ⟨.hbm, 261, rfl⟩
abbrev main_v129 : Ref sig .tc := ⟨.hbm, 262, rfl⟩
abbrev main_v130 : Ref sig .tc := ⟨.hbm, 263, rfl⟩
abbrev main_v131 : Ref sig .tc := ⟨.hbm, 264, rfl⟩
abbrev main_cst_50 : Ref sig .tc := ⟨.hbm, 265, rfl⟩
abbrev main_v132 : Ref sig .tc := ⟨.hbm, 266, rfl⟩
abbrev main_v133 : Ref sig .tc := ⟨.hbm, 267, rfl⟩
abbrev main_v134 : Ref sig .tc := ⟨.hbm, 268, rfl⟩
abbrev main_v135 : Ref sig .tc := ⟨.hbm, 269, rfl⟩
abbrev main_cst_51 : Ref sig .tc := ⟨.hbm, 270, rfl⟩
abbrev main_cst_52 : Ref sig .tc := ⟨.hbm, 271, rfl⟩
abbrev main_call26_v0 : Ref sig .tc := ⟨.hbm, 272, rfl⟩
abbrev main_call26_v1 : Ref sig .tc := ⟨.hbm, 273, rfl⟩
abbrev main_call26_v2 : Ref sig .tc := ⟨.hbm, 274, rfl⟩
abbrev main_call26_v3 : Ref sig .tc := ⟨.hbm, 275, rfl⟩
abbrev main_call26_v4 : Ref sig .tc := ⟨.hbm, 276, rfl⟩
abbrev main_v136 : Ref sig .tc := ⟨.hbm, 277, rfl⟩
abbrev main_v137 : Ref sig .tc := ⟨.hbm, 278, rfl⟩
abbrev main_v138 : Ref sig .tc := ⟨.hbm, 279, rfl⟩
abbrev main_v139 : Ref sig .tc := ⟨.hbm, 280, rfl⟩
abbrev main_v140 : Ref sig .tc := ⟨.hbm, 281, rfl⟩
abbrev main_v141 : Ref sig .tc := ⟨.hbm, 282, rfl⟩
abbrev main_v142 : Ref sig .tc := ⟨.hbm, 283, rfl⟩
abbrev main_v143 : Ref sig .tc := ⟨.hbm, 284, rfl⟩
abbrev main_v144 : Ref sig .tc := ⟨.hbm, 285, rfl⟩
abbrev main_v145 : Ref sig .tc := ⟨.hbm, 286, rfl⟩
abbrev main_cst_53 : Ref sig .tc := ⟨.hbm, 287, rfl⟩
abbrev main_cst_54 : Ref sig .tc := ⟨.hbm, 288, rfl⟩
abbrev main_call27_v0 : Ref sig .tc := ⟨.hbm, 289, rfl⟩
abbrev main_call27_v1 : Ref sig .tc := ⟨.hbm, 290, rfl⟩
abbrev main_call27_v2 : Ref sig .tc := ⟨.hbm, 291, rfl⟩
abbrev main_call27_v3 : Ref sig .tc := ⟨.hbm, 292, rfl⟩
abbrev main_call27_v4 : Ref sig .tc := ⟨.hbm, 293, rfl⟩
abbrev main_v146 : Ref sig .tc := ⟨.hbm, 294, rfl⟩
abbrev main_cst_55 : Ref sig .tc := ⟨.hbm, 295, rfl⟩
abbrev main_v147 : Ref sig .tc := ⟨.hbm, 296, rfl⟩
abbrev main_v148 : Ref sig .tc := ⟨.hbm, 297, rfl⟩
abbrev main_v149 : Ref sig .tc := ⟨.hbm, 298, rfl⟩
abbrev main_cst_56 : Ref sig .tc := ⟨.hbm, 299, rfl⟩
abbrev main_cst_57 : Ref sig .tc := ⟨.hbm, 300, rfl⟩
abbrev main_call29_v0 : Ref sig .tc := ⟨.hbm, 301, rfl⟩
abbrev main_call29_v1 : Ref sig .tc := ⟨.hbm, 302, rfl⟩
abbrev main_call29_v2 : Ref sig .tc := ⟨.hbm, 303, rfl⟩
abbrev main_call29_v3 : Ref sig .tc := ⟨.hbm, 304, rfl⟩
abbrev main_call29_v4 : Ref sig .tc := ⟨.hbm, 305, rfl⟩
abbrev main_v150 : Ref sig .tc := ⟨.hbm, 306, rfl⟩
abbrev main_cst_58 : Ref sig .tc := ⟨.hbm, 307, rfl⟩
abbrev main_v151 : Ref sig .tc := ⟨.hbm, 308, rfl⟩
abbrev main_v152 : Ref sig .tc := ⟨.hbm, 309, rfl⟩
abbrev main_v153 : Ref sig .tc := ⟨.hbm, 310, rfl⟩
abbrev main_v154 : Ref sig .tc := ⟨.hbm, 311, rfl⟩
abbrev main_v155 : Ref sig .tc := ⟨.hbm, 312, rfl⟩
abbrev main_cst_59 : Ref sig .tc := ⟨.hbm, 313, rfl⟩
abbrev main_v156 : Ref sig .tc := ⟨.hbm, 314, rfl⟩
abbrev main_cst_60 : Ref sig .tc := ⟨.hbm, 315, rfl⟩
abbrev main_v157 : Ref sig .tc := ⟨.hbm, 316, rfl⟩
abbrev main_cst_61 : Ref sig .tc := ⟨.hbm, 317, rfl⟩
abbrev main_v158 : Ref sig .tc := ⟨.hbm, 318, rfl⟩
abbrev main_v159 : Ref sig .tc := ⟨.hbm, 319, rfl⟩
abbrev main_v160 : Ref sig .tc := ⟨.hbm, 320, rfl⟩
abbrev main_v161 : Ref sig .tc := ⟨.hbm, 321, rfl⟩
abbrev main_cst_62 : Ref sig .tc := ⟨.hbm, 322, rfl⟩
abbrev main_cst_63 : Ref sig .tc := ⟨.hbm, 323, rfl⟩
abbrev main_call31_v0 : Ref sig .tc := ⟨.hbm, 324, rfl⟩
abbrev main_call31_v1 : Ref sig .tc := ⟨.hbm, 325, rfl⟩
abbrev main_call31_v2 : Ref sig .tc := ⟨.hbm, 326, rfl⟩
abbrev main_call31_v3 : Ref sig .tc := ⟨.hbm, 327, rfl⟩
abbrev main_call31_v4 : Ref sig .tc := ⟨.hbm, 328, rfl⟩
abbrev main_v162 : Ref sig .tc := ⟨.hbm, 329, rfl⟩
abbrev main_v163 : Ref sig .tc := ⟨.hbm, 330, rfl⟩
abbrev main_v164 : Ref sig .tc := ⟨.hbm, 331, rfl⟩
abbrev main_v165 : Ref sig .tc := ⟨.hbm, 332, rfl⟩
abbrev main_v166 : Ref sig .tc := ⟨.hbm, 333, rfl⟩
abbrev main_cst_64 : Ref sig .tc := ⟨.hbm, 334, rfl⟩
abbrev main_v167 : Ref sig .tc := ⟨.hbm, 335, rfl⟩
abbrev main_v168 : Ref sig .tc := ⟨.hbm, 336, rfl⟩
abbrev main_v169 : Ref sig .tc := ⟨.hbm, 337, rfl⟩
abbrev main_v170 : Ref sig .tc := ⟨.hbm, 338, rfl⟩
abbrev main_cst_65 : Ref sig .tc := ⟨.hbm, 339, rfl⟩
abbrev main_cst_66 : Ref sig .tc := ⟨.hbm, 340, rfl⟩
abbrev main_call33_v0 : Ref sig .tc := ⟨.hbm, 341, rfl⟩
abbrev main_call33_v1 : Ref sig .tc := ⟨.hbm, 342, rfl⟩
abbrev main_call33_v2 : Ref sig .tc := ⟨.hbm, 343, rfl⟩
abbrev main_call33_v3 : Ref sig .tc := ⟨.hbm, 344, rfl⟩
abbrev main_call33_v4 : Ref sig .tc := ⟨.hbm, 345, rfl⟩
abbrev main_v171 : Ref sig .tc := ⟨.hbm, 346, rfl⟩
abbrev main_v172 : Ref sig .tc := ⟨.hbm, 347, rfl⟩
abbrev main_v173 : Ref sig .tc := ⟨.hbm, 348, rfl⟩
abbrev main_v174 : Ref sig .tc := ⟨.hbm, 349, rfl⟩
abbrev main_v175 : Ref sig .tc := ⟨.hbm, 350, rfl⟩
abbrev main_v176 : Ref sig .tc := ⟨.hbm, 351, rfl⟩
abbrev main_v177 : Ref sig .tc := ⟨.hbm, 352, rfl⟩
abbrev main_v178 : Ref sig .tc := ⟨.hbm, 353, rfl⟩
abbrev main_v179 : Ref sig .tc := ⟨.hbm, 354, rfl⟩
abbrev main_v180 : Ref sig .tc := ⟨.hbm, 355, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S262144x2_S_d0_1 : S262144x2.ReducesTo [0, 1] S_
  h_S_ : 0 < S_.numel
  bcast_S_S262144x2 : S_.BroadcastsInDim S262144x2 (![] : Fin 0 → Fin S262144x2.rank)
  reducesTo_S50x2_S_d0_1 : S50x2.ReducesTo [0, 1] S_
  bcast_S_S50x2 : S_.BroadcastsInDim S50x2 (![] : Fin 0 → Fin S50x2.rank)
  bcast_S_S50 : S_.BroadcastsInDim S50 (![] : Fin 0 → Fin S50.rank)
  transposes_S50x2_S2x50_1_0 : S50x2.Transposes [1, 0] S2x50
  bcast_S50_S1x50_1 : S50.BroadcastsInDim S1x50 (![1] : Fin 1 → Fin S1x50.rank)
  bcast_S1x50_S262144x50_0_1 : S1x50.BroadcastsInDim S262144x50 (![0, 1] : Fin 2 → Fin S262144x50.rank)
  bcast_S_S262144x50 : S_.BroadcastsInDim S262144x50 (![] : Fin 0 → Fin S262144x50.rank)
  reducesTo_S50x50_S_d0_1 : S50x50.ReducesTo [0, 1] S_
  bcast_S_S50x50 : S_.BroadcastsInDim S50x50 (![] : Fin 0 → Fin S50x50.rank)
  transposes_S50x50_S50x50_1_0 : S50x50.Transposes [1, 0] S50x50
  reducesTo_S2x50_S_d0_1 : S2x50.ReducesTo [0, 1] S_
  bcast_S_S2x50 : S_.BroadcastsInDim S2x50 (![] : Fin 0 → Fin S2x50.rank)
  bcast_S_S2 : S_.BroadcastsInDim S2 (![] : Fin 0 → Fin S2.rank)
  transposes_S2x50_S50x2_1_0 : S2x50.Transposes [1, 0] S50x2
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  dot_S262144x2_S2x50_S262144x50_1_0_0_1_n_n_wf : DotDims.WF S262144x2 S2x50 S262144x50 [1] [0] [0] [1] [] []
  dot_S262144x50_S50x50_S262144x50_1_0_0_1_n_n_wf : DotDims.WF S262144x50 S50x50 S262144x50 [1] [0] [0] [1] [] []
  dot_S262144x50_S50x2_S262144x2_1_0_0_1_n_n_wf : DotDims.WF S262144x50 S50x2 S262144x2 [1] [0] [0] [1] [] []

variable [Facts₀]

def dot_S262144x2_S2x50_S262144x50_1_0_0_1_n_n : DotDims S262144x2 S2x50 S262144x50 where
  lhsContracting := [1]
  rhsContracting := [0]
  lhsNonContracting := [0]
  rhsNonContracting := [1]
  lhsBatch := []
  rhsBatch := []
  wf := dot_S262144x2_S2x50_S262144x50_1_0_0_1_n_n_wf
def dot_S262144x50_S50x50_S262144x50_1_0_0_1_n_n : DotDims S262144x50 S50x50 S262144x50 where
  lhsContracting := [1]
  rhsContracting := [0]
  lhsNonContracting := [0]
  rhsNonContracting := [1]
  lhsBatch := []
  rhsBatch := []
  wf := dot_S262144x50_S50x50_S262144x50_1_0_0_1_n_n_wf
def dot_S262144x50_S50x2_S262144x2_1_0_0_1_n_n : DotDims S262144x50 S50x2 S262144x2 where
  lhsContracting := [1]
  rhsContracting := [0]
  lhsNonContracting := [0]
  rhsNonContracting := [1]
  lhsBatch := []
  rhsBatch := []
  wf := dot_S262144x50_S50x2_S262144x2_1_0_0_1_n_n_wf

class Facts : Prop extends Facts₀ where

variable [Facts]
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.UnitLiterals.lean ====
/-
  The two float words that bound an activation, as the extended reals they denote: `0xBF800000` is `-1` and
  `0x3F800000` is `1`. A value clipped between them is therefore a real number, never an infinity — the one fact
  about literals this certificate needs; every other word appears identically in both programs and is never evaluated.
-/
import Idealize.ShloMosaic.PureOps.Ideal

noncomputable section

namespace Cert.UnitLiterals

open Idealize.ShloMosaic

/-- The word `0x3F800000` denotes the real number `1`. -/
theorem ofBits_one : Ideal.ofBits .f32 0x3F800000#32 = ((1 : ℝ) : EReal) := by
  simp [Ideal.ofBits, Ideal.ieee, -EReal.coe_mul]; norm_num

/-- The word `0xBF800000` denotes the real number `-1`. -/
theorem ofBits_neg_one : Ideal.ofBits .f32 0xBF800000#32 = ((-1 : ℝ) : EReal) := by
  simp [Ideal.ofBits, Ideal.ieee, -EReal.coe_mul]; norm_num

end Cert.UnitLiterals

end
-- ==== Proof.QuantNet.lean ====
/-
  A perceptron with fake-quantized activations, on the extended reals, for any number of rows.

  `quant s x` sends `x` to the nearest of the 255 levels `-127 s, …, 127 s`: divide by the scale `s`, round to nearest
  (ties to even), clip to `[-127, 127]`, multiply by `s` again. An activation `act` first clips to `[-1, 1]` and then
  quantizes at the scale `1/127` (the float nearest to it; both programs spell the same word, so its value is never
  needed). A layer is a matrix product with a bias row added to every row. `net` quantizes the input at the scale `s`,
  applies four layers each followed by `act`, and a last layer with no activation.

  Every step of `net` acts on each row by itself — a product's entry depends on its own row of the left operand, a
  bias and an activation on the entry alone — so the net of a block of rows is that block of rows of the net
  (`net_rows`). That is what lets a kernel compute the rows sixteen thousand at a time.

  The straight-through form `ste a q = a + (q - a)` of a quantizer is `q` itself whenever `a` is a real number
  (`ste_coe`): on the extended reals `a + (q - a) = q + (a - a)`, and `a - a = 0` exactly when `a` is not an infinity. A value
  clipped to `[-1, 1]` is always real (`unitClip_real`), so an activation's straight-through form is the activation
  (`actSte_eq`) with no hypothesis at all.
-/
import proofs.«123622_j54305566490841_1_alg».proof.Proof.LibPlainDot
import proofs.«123622_j54305566490841_1_alg».proof.Proof.LibRowBias
import proofs.«123622_j54305566490841_1_alg».proof.Proof.UnitLiterals
import Idealize.ShloMosaic.PureOps.Ideal
import Idealize.ShloMosaic.Lib.ValueIdx

noncomputable section

namespace Cert.QuantNet

open Idealize.ShloMosaic Idealize.ShloMosaic.ValueIdx Cert.LibPlainDot Cert.LibRowBias

/-- An `[M, N]` array of extended reals. -/
abbrev Mat (M N : ℕ) : Type := (⟨2, ![M, N]⟩ : Shape).Idx → EReal

/-! ## The scalar functions -/

/-- Round to the nearest integer, ties to even; the infinities are fixed. -/
def rne (x : EReal) : EReal := Ideal.liftRound Ideal.roundHalfEven x

/-- `x` clipped to `[lo, hi]`: the lower bound first, then the upper one. -/
def clip (lo hi x : EReal) : EReal := min hi (max lo x)

/-- The quantizer at scale `s`: `clip (-127) 127 (round (x / s)) * s`. -/
def quant (s x : EReal) : EReal :=
  clip (Ideal.ofBits .f32 0xC2FE0000#32) (Ideal.ofBits .f32 0x42FE0000#32) (rne (Ideal.div x s)) * s

/-- `x` clipped to `[-1, 1]`. -/
def unitClip (x : EReal) : EReal := clip (Ideal.ofBits .f32 0xBF800000#32) (Ideal.ofBits .f32 0x3F800000#32) x

/-- The activation: clip to `[-1, 1]`, then quantize at the scale `1/127` (as a float). -/
def act (x : EReal) : EReal := quant (Ideal.ofBits .f32 0x3C010204#32) (unitClip x)

/-- The straight-through form of replacing `a` by `q`. -/
def ste (a q : EReal) : EReal := a + (q - a)

/-- The activation in its straight-through form. -/
def actSte (x : EReal) : EReal := ste (unitClip x) (act x)

/-- Around a real number the straight-through form is the replacement itself, whatever the replacement is. -/
theorem ste_coe (r : ℝ) (q : EReal) : ste (r : EReal) q = q := by
  unfold ste
  rw [sub_eq_add_neg, add_comm q, ← add_assoc, ← EReal.coe_neg, ← EReal.coe_add, add_neg_cancel, EReal.coe_zero, zero_add]

/-- The same, for a value known to be some real number. -/
theorem ste_of_real {a : EReal} (h : ∃ r : ℝ, a = (r : EReal)) (q : EReal) : ste a q = q := by
  obtain ⟨r, rfl⟩ := h
  exact ste_coe r q

/-- A value clipped between two real bounds is a real number. -/
theorem clip_real (lo hi : ℝ) (x : EReal) : ∃ r : ℝ, clip (lo : EReal) (hi : EReal) x = (r : EReal) := by
  have hbot : clip (lo : EReal) (hi : EReal) x ≠ ⊥ := by
    unfold clip
    intro h
    rcases min_eq_bot.mp h with h1 | h1
    · exact EReal.coe_ne_bot hi h1
    · rcases max_eq_bot.mp h1 with ⟨h2, -⟩
      exact EReal.coe_ne_bot lo h2
  have htop : clip (lo : EReal) (hi : EReal) x ≠ ⊤ := by
    unfold clip
    intro h
    exact EReal.coe_ne_top hi (top_le_iff.mp (h ▸ min_le_left _ _))
  exact ⟨(clip (lo : EReal) (hi : EReal) x).toReal, (EReal.coe_toReal htop hbot).symm⟩

/-- A value clipped to `[-1, 1]` is a real number. -/
theorem unitClip_real (x : EReal) : ∃ r : ℝ, unitClip x = (r : EReal) := by
  unfold unitClip
  rw [Cert.UnitLiterals.ofBits_neg_one, Cert.UnitLiterals.ofBits_one]
  exact clip_real (-1) 1 x

/-- An activation's straight-through form is the activation: what it is taken around is clipped, hence real. -/
theorem actSte_eq (x : EReal) : actSte x = act x := ste_of_real (unitClip_real x) _

/-! ## Layers and the net -/

/-- One layer: the rows of `h` times `Wt`, plus the bias row `b` on every row. -/
def layer {M K N : ℕ} (h : Mat M K) (Wt : Mat K N) (b : Mat 1 N) : Mat M N := rowBias (rowsTimes h Wt) b

/-- The net on `M` rows: the input quantized at scale `s`; four layers each followed by the activation; a last layer. -/
def net {M : ℕ} (s : EReal) (X : Mat M 2) (W1 : Mat 2 50) (b1 : Mat 1 50) (W2 : Mat 50 50) (b2 : Mat 1 50)
    (W3 : Mat 50 50) (b3 : Mat 1 50) (W4 : Mat 50 50) (b4 : Mat 1 50) (Wo : Mat 50 2) (bo : Mat 1 2) : Mat M 2 :=
  layer (fun i => act (layer (fun i => act (layer (fun i => act (layer (fun i => act (layer (fun i => quant s (X i)) W1 b1 i))
    W2 b2 i)) W3 b3 i)) W4 b4 i)) Wo bo

/-! ## Blocks of rows -/

/-- `ab` is rows `o, o + 1, …` of `a` (as far as `a` has them). -/
def RowsOf {M R N : ℕ} (o : ℕ) (ab : Mat R N) (a : Mat M N) : Prop :=
  ∀ (p : Fin R) (q : Fin N) (h : o + p.val < M), ab (ix2 p q) = a (ix2 (⟨o + p.val, h⟩ : Fin M) q)

/-- A function applied entry by entry keeps a block of rows a block of rows. -/
theorem RowsOf.map {M R N : ℕ} {o : ℕ} {ab : Mat R N} {a : Mat M N} (f : EReal → EReal) (h : RowsOf o ab a) :
    RowsOf o (fun i => f (ab i)) (fun i => f (a i)) := fun p q hm => congrArg f (h p q hm)

/-- A layer of a block of rows is that block of rows of the layer. -/
theorem RowsOf.layer {M R K N : ℕ} {o : ℕ} {hb : Mat R K} {ha : Mat M K} (h : RowsOf o hb ha) (Wt : Mat K N) (b : Mat 1 N) :
    RowsOf o (layer hb Wt b) (layer ha Wt b) := by
  intro p q hm
  unfold QuantNet.layer
  refine rowBias_rows o (rowsTimes ha Wt) (rowsTimes hb Wt) b ?_ (ix2 p q) (ix2 (⟨o + p.val, hm⟩ : Fin M) q) rfl rfl
  intro p' q' hm'
  exact rowsTimes_rows o ha hb Wt h (ix2 p' q') (ix2 (⟨o + p'.val, hm'⟩ : Fin M) q') rfl rfl

/-- The net of a block of rows is that block of rows of the net. -/
theorem net_rows {M R : ℕ} {o : ℕ} {Xb : Mat R 2} {X : Mat M 2} (h : RowsOf o Xb X) (s : EReal)
    (W1 : Mat 2 50) (b1 : Mat 1 50) (W2 : Mat 50 50) (b2 : Mat 1 50) (W3 : Mat 50 50) (b3 : Mat 1 50)
    (W4 : Mat 50 50) (b4 : Mat 1 50) (Wo : Mat 50 2) (bo : Mat 1 2) :
    RowsOf o (net s Xb W1 b1 W2 b2 W3 b3 W4 b4 Wo bo) (net s X W1 b1 W2 b2 W3 b3 W4 b4 Wo bo) := by
  unfold net
  exact (((((((((h.map (quant s)).layer W1 b1).map act).layer W2 b2).map act).layer W3 b3).map act).layer W4 b4).map act).layer Wo bo

/-- The same, at an entry `y` of the block and the entry `i` of the whole it is. -/
theorem net_rows_apply {M R : ℕ} {o : ℕ} {Xb : Mat R 2} {X : Mat M 2} (h : RowsOf o Xb X) (s : EReal)
    (W1 : Mat 2 50) (b1 : Mat 1 50) (W2 : Mat 50 50) (b2 : Mat 1 50) (W3 : Mat 50 50) (b3 : Mat 1 50)
    (W4 : Mat 50 50) (b4 : Mat 1 50) (Wo : Mat 50 2) (bo : Mat 1 2)
    (y : (⟨2, ![R, 2]⟩ : Shape).Idx) (i : (⟨2, ![M, 2]⟩ : Shape).Idx) (h0 : (i 0).val = o + (y 0).val) (h1 : (i 1).val = (y 1).val) :
    net s Xb W1 b1 W2 b2 W3 b3 W4 b4 Wo bo y = net s X W1 b1 W2 b2 W3 b3 W4 b4 Wo bo i := by
  have hM : o + (y 0).val < M := h0 ▸ idx2_lt0 i
  have e := net_rows h s W1 b1 W2 b2 W3 b3 W4 b4 Wo bo (y 0) (y 1) hM
  have ei : i = ix2 (⟨o + (y 0).val, hM⟩ : Fin M) (y 1) := by
    funext d; match d with | ⟨0, _⟩ => exact Fin.ext h0 | ⟨1, _⟩ => exact Fin.ext h1
  rw [eq_ix2 y, ei]
  exact e

end Cert.QuantNet

end
-- ==== Proof.KernelPayload.lean ====
/-
  What the kernel's body stores, as the net of its loaded blocks.

  The body loads a tile of sixteen thousand input rows, the input scale (a `[1, 1]` block), and the five layers'
  weights and biases whole. It quantizes the tile at the scale; each layer transposes its weight block, multiplies
  the activations by it on the matrix unit into a zero accumulator, and adds the bias, cast from `[N]` to `[1, N]` and
  broadcast over the rows; between layers it clips to `[-1, 1]` and quantizes at `1/127`. A product into the zero splat
  is the plain sum of products (`rowsTimes`), a `[1, N]` row broadcast over the rows and added is `rowBias`, and the
  clips and quantizers are entry-by-entry: so the stored tile is `net` of the loaded tile, the loaded scale, the
  transposed weight blocks and the bias blocks as rows.
-/
import proofs.«123622_j54305566490841_1_alg».proof.Proof.Gen.KernelIdeal.Skeleton
import proofs.«123622_j54305566490841_1_alg».proof.Proof.QuantNet
import Idealize.ShloMosaic.Lib.Pipeline.Value
import Idealize.ShloMosaic.PureOps.Ideal.Laws

noncomputable section

namespace Cert.KernelIdeal.Payload

open Idealize.ShloMosaic Idealize.ShloMosaic.ValueIdx Cert.LibPlainDot Cert.LibRowBias Cert.QuantNet
open Cert.KernelIdeal Cert.KernelIdeal.Gen

/-- A `[1, N]` row broadcast over `M` rows and added to an `[M, N]` array adds that row to every row. -/
theorem addf_broadcastTo_row {M N : ℕ} (a : FVec Ideal ⟨2, ![M, N]⟩ .f32) (b : FVec Ideal ⟨2, ![1, N]⟩ .f32)
    (hb : (⟨2, ![1, N]⟩ : Shape).Broadcasts ⟨2, ![M, N]⟩) :
    addf a (broadcastTo ⟨2, ![M, N]⟩ b hb) = rowBias (M := M) (N := N) a b := by
  funext i
  obtain ⟨p, q, rfl⟩ : ∃ (p : Fin M) (q : Fin N), i = ix2 p q := ⟨i 0, i 1, eq_ix2 i⟩
  have e : broadcastTo ⟨2, ![M, N]⟩ b hb (ix2 p q) = b (ix2 (0 : Fin 1) q) :=
    broadcastTo_apply b hb (ix2 p q) (ix2 (0 : Fin 1) q) (fun d => by
      match d with
      | ⟨0, _⟩ => show (0 : ℕ) = if (1 : ℕ) = 1 then 0 else _; rw [if_pos rfl]
      | ⟨1, _⟩ =>
        show q.val = if N = 1 then 0 else q.val
        split
        · have := q.isLt; omega
        · rfl)
  rw [rowBias_apply]
  show a (ix2 p q) + broadcastTo ⟨2, ![M, N]⟩ b hb (ix2 p q) = _
  rw [e]

/-- One layer as the kernel spells it: a matrix-unit product over the plain dimension numbers into the zero splat,
    plus a broadcast `[1, N]` row. -/
theorem layer_spelt {M K N : ℕ} (d : DotDims ⟨2, ![M, K]⟩ ⟨2, ![K, N]⟩ ⟨2, ![M, N]⟩) (hd : d = DotDims.plain M K N)
    (a : FVec Ideal ⟨2, ![M, K]⟩ .f32) (Wt : FVec Ideal ⟨2, ![K, N]⟩ .f32) (b : FVec Ideal ⟨2, ![1, N]⟩ .f32)
    (hb : (⟨2, ![1, N]⟩ : Shape).Broadcasts ⟨2, ![M, N]⟩) :
    addf (matmul d none a Wt (constant ⟨2, ![M, N]⟩ .f32 0x00000000#32)) (broadcastTo ⟨2, ![M, N]⟩ b hb)
      = layer (M := M) (K := K) (N := N) a Wt b := by
  subst hd
  rw [addf_broadcastTo_row]
  exact congrArg (fun z => rowBias (M := M) (N := N) z b) (matmul_zero_plain none a Wt)

/-- The activation as the kernel spells it: two clips by splats around a division, a rounding and a product. -/
theorem act_spelt {S : Shape} (x : FVec Ideal S .f32) :
    mulf (minimumf (broadcast S (Scalar.ofBits (F := Ideal) .f32 0x42FE0000#32)) (maximumf (broadcast S (Scalar.ofBits (F := Ideal) .f32 0xC2FE0000#32))
      (roundeven (divf (minimumf (broadcast S (Scalar.ofBits (F := Ideal) .f32 0x3F800000#32)) (maximumf (broadcast S (Scalar.ofBits (F := Ideal) .f32 0xBF800000#32)) x))
        (broadcast S (Scalar.ofBits (F := Ideal) .f32 0x3C010204#32))))))
      (broadcast S (Scalar.ofBits (F := Ideal) .f32 0x3C010204#32)) = fun i => act (x i) := rfl

/-- The input quantizer as the kernel spells it. -/
theorem quant_spelt {S : Shape} (s : EReal) (x : FVec Ideal S .f32) :
    mulf (minimumf (broadcast S (Scalar.ofBits (F := Ideal) .f32 0x42FE0000#32)) (maximumf (broadcast S (Scalar.ofBits (F := Ideal) .f32 0xC2FE0000#32))
      (roundeven (divf x (broadcast S s))))) (broadcast S s) = fun i => quant s (x i) := rfl

variable [Facts]

/-- The scale is the one entry of its `[1, 1]` block. -/
theorem scale_read (x1 : Vec Ideal S1x1 .f32) : extractAt ![0, 0] x1 inpos_S1x1_p0_0 = x1 (ix2 (0 : Fin 1) (0 : Fin 1)) :=
  congrArg x1 (funext fun a => by match a with | ⟨0, _⟩ => rfl | ⟨1, _⟩ => rfl)

/-- The first part of the body: the input tile quantized, the first layer and its activation, and the second layer's
    product (its bias comes in the next part). -/
theorem pay2_eq (x1 : Vec Ideal S1x1 .f32) (x0 : Vec Ideal S16384x2 .f32) (x2 : Vec Ideal S50x2 .f32) (x3 : Vec Ideal S50 .f32)
    (x4 : Vec Ideal S50x50 .f32) :
    k0_pay2 (F := Ideal) x1 x0 x2 x3 x4
      = rowsTimes (M := 16384) (K := 50) (N := 50)
          (fun i => act (layer (M := 16384) (K := 2) (N := 50) (fun i => quant (x1 (ix2 (0 : Fin 1) (0 : Fin 1))) (x0 i))
            (transpose S2x50 [1, 0] x2 transposes_S50x2_p1_0_S2x50) (shapeCast S1x50 x3 shapeCasts_S50_S1x50) i))
          (transpose S50x50 [1, 0] x4 transposes_S50x50_p1_0_S50x50) := by
  unfold k0_pay2
  dsimp only
  simp only [shapeCast_self]
  rw [layer_spelt dot_S16384x2_S2x50_S16384x50_1_0_0_1_n_n rfl, act_spelt, quant_spelt, scale_read]
  exact matmul_zero_plain none _ _

/-- The middle part: the second layer's bias and activation, the third layer and its activation. -/
theorem pay3_eq (v38 : FVec Ideal S16384x50 .f32) (x5 : Vec Ideal S50 .f32) (x6 : Vec Ideal S50x50 .f32) (x7 : Vec Ideal S50 .f32) :
    k0_pay3 (F := Ideal) v38 x5 x6 x7
      = fun i => act (layer (M := 16384) (K := 50) (N := 50)
          (fun i => act (rowBias (M := 16384) (N := 50) v38 (shapeCast S1x50 x5 shapeCasts_S50_S1x50) i))
          (transpose S50x50 [1, 0] x6 transposes_S50x50_p1_0_S50x50) (shapeCast S1x50 x7 shapeCasts_S50_S1x50) i) := by
  unfold k0_pay3
  dsimp only
  simp only [shapeCast_self]
  rw [layer_spelt dot_S16384x50_S50x50_S16384x50_1_0_0_1_n_n rfl, addf_broadcastTo_row, act_spelt, act_spelt]

/-- The fourth layer's weight block is loaded as it is. -/
theorem pay4_eq (x8 : Vec Ideal S50x50 .f32) : k0_pay4 (F := Ideal) x8 = x8 := by
  unfold k0_pay4
  exact shapeCast_self x8 _

/-- The last part: the fourth layer and its activation, and the output layer. -/
theorem pay1_eq (v78 : FVec Ideal S16384x50 .f32) (v80 : FVec Ideal S50x50 .f32) (x9 : Vec Ideal S50 .f32) (x10 : Vec Ideal S2x50 .f32)
    (x11 : Vec Ideal S2 .f32) :
    k0_pay1 (F := Ideal) v78 v80 x9 x10 x11
      = layer (M := 16384) (K := 50) (N := 2)
          (fun i => act (layer (M := 16384) (K := 50) (N := 50) v78 (transpose S50x50 [1, 0] v80 transposes_S50x50_p1_0_S50x50)
            (shapeCast S1x50 x9 shapeCasts_S50_S1x50) i))
          (transpose S50x2 [1, 0] x10 transposes_S2x50_p1_0_S50x2) (shapeCast S1x2 x11 shapeCasts_S2_S1x2) := by
  unfold k0_pay1
  dsimp only
  simp only [shapeCast_self]
  rw [layer_spelt dot_S16384x50_S50x50_S16384x50_1_0_0_1_n_n rfl, layer_spelt dot_S16384x50_S50x2_S16384x2_1_0_0_1_n_n rfl, act_spelt]

/-- THE STORED TILE: the net of the loaded tile at the loaded scale, over the transposed weight blocks and the bias
    blocks as rows. -/
theorem stored_eq_net (x0 : Vec Ideal S16384x2 .f32) (x1 : Vec Ideal S1x1 .f32) (x2 : Vec Ideal S50x2 .f32) (x3 : Vec Ideal S50 .f32)
    (x4 : Vec Ideal S50x50 .f32) (x5 : Vec Ideal S50 .f32) (x6 : Vec Ideal S50x50 .f32) (x7 : Vec Ideal S50 .f32)
    (x8 : Vec Ideal S50x50 .f32) (x9 : Vec Ideal S50 .f32) (x10 : Vec Ideal S2x50 .f32) (x11 : Vec Ideal S2 .f32) :
    k0_pay1 (F := Ideal) (k0_pay3 (k0_pay2 x1 x0 x2 x3 x4) x5 x6 x7) (k0_pay4 x8) x9 x10 x11
      = net (M := 16384) (x1 (ix2 (0 : Fin 1) (0 : Fin 1))) x0
          (transpose S2x50 [1, 0] x2 transposes_S50x2_p1_0_S2x50) (shapeCast S1x50 x3 shapeCasts_S50_S1x50)
          (transpose S50x50 [1, 0] x4 transposes_S50x50_p1_0_S50x50) (shapeCast S1x50 x5 shapeCasts_S50_S1x50)
          (transpose S50x50 [1, 0] x6 transposes_S50x50_p1_0_S50x50) (shapeCast S1x50 x7 shapeCasts_S50_S1x50)
          (transpose S50x50 [1, 0] x8 transposes_S50x50_p1_0_S50x50) (shapeCast S1x50 x9 shapeCasts_S50_S1x50)
          (transpose S50x2 [1, 0] x10 transposes_S2x50_p1_0_S50x2) (shapeCast S1x2 x11 shapeCasts_S2_S1x2) := by
  rw [pay2_eq, pay3_eq, pay4_eq, pay1_eq]
  rfl

end Cert.KernelIdeal.Payload

end
-- ==== Proof.KernelBlocks.lean ====
/-
  From the tiles to the whole array.

  Grid point `t` of sixteen works on rows `16384 t … 16384 t + 16383`: its input tile is those rows of the stacked input,
  its output tile those rows of the result; the scale, the weights and the biases are staged whole at every point. The
  stored tile is the net of the loaded tile (`stored_eq_net`), and the net of a block of rows is that block of rows of
  the net (`net_rows`): so what point `t` writes back is tile `t` of ONE array, the net of all the rows
  (`wholeNet`). The sixteen tiles cover the result array, which therefore ends holding `wholeNet`.
-/
import proofs.«123622_j54305566490841_1_alg».proof.Proof.Gen.KernelIdeal.Value
import proofs.«123622_j54305566490841_1_alg».proof.Proof.KernelPayload

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.QuantNet Cert.KernelIdeal.Payload

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the sixteen grid points: the input and output tiles follow the point along the rows;
    every other window stays at block zero. -/
theorem index_facts : ∀ t : Fin cfg0.N,
    win0_0.index t (0 : Fin 2) = t.val ∧ win0_0.index t (1 : Fin 2) = 0
    ∧ win0_12.index t (0 : Fin 2) = t.val ∧ win0_12.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = 0 ∧ win0_10.index t (1 : Fin 2) = 0
    ∧ win0_11.index t (0 : Fin 1) = 0 :=
  (by decide +kernel : ∀ t : Fin grid0.N, _)

/-- The input tile at point `t` is rows `16384 t, …` of the stacked input. -/
theorem tile_rows (c : Dev nD) (t : Fin cfg0.N) :
    RowsOf (M := 262144) (R := 16384) (N := 2) (t.val * 16384) (iblk m c 0 t) (V m c main_v2) := by
  intro p q h
  show V m c main_v2 (((cfg0.win 0).blk t).view.emb (ix2 p q)) = V m c main_v2 (ix2 (⟨t.val * 16384 + p.val, h⟩ : Fin 262144) q)
  refine congrArg (V m c main_v2) (funext fun a => Fin.ext ?_)
  obtain ⟨e0, e1, -⟩ := index_facts t
  match a with
  | ⟨0, _⟩ => show win0_0.index t (0 : Fin 2) * 16384 + 1 * p.val = t.val * 16384 + p.val; rw [e0]; omega
  | ⟨1, _⟩ => show win0_0.index t (1 : Fin 2) * 2 + 1 * q.val = q.val; rw [e1]; omega

/-- The scale's block is the scale's array. -/
theorem blk1 (c : Dev nD) (t : Fin cfg0.N) : iblk m c 1 t = V m c main_v92 := by
  funext j
  show V m c main_v92 (((cfg0.win 1).blk t).view.emb j) = V m c main_v92 j
  refine congrArg (V m c main_v92) (funext fun a => Fin.ext ?_)
  obtain ⟨-, -, -, -, e0, e1, -⟩ := index_facts t
  match a with
  | ⟨0, _⟩ => show win0_1.index t (0 : Fin 2) * 1 + 1 * (j 0).val = (j 0).val; rw [e0]; omega
  | ⟨1, _⟩ => show win0_1.index t (1 : Fin 2) * 1 + 1 * (j 1).val = (j 1).val; rw [e1]; omega

/-- The first weight's block is the first quantized weight array. -/
theorem blk2 (c : Dev nD) (t : Fin cfg0.N) : iblk m c 2 t = V m c main_v16 := by
  funext j
  show V m c main_v16 (((cfg0.win 2).blk t).view.emb j) = V m c main_v16 j
  refine congrArg (V m c main_v16) (funext fun a => Fin.ext ?_)
  obtain ⟨-, -, -, -, -, -, e0, e1, -⟩ := index_facts t
  match a with
  | ⟨0, _⟩ => show win0_2.index t (0 : Fin 2) * 50 + 1 * (j 0).val = (j 0).val; rw [e0]; omega
  | ⟨1, _⟩ => show win0_2.index t (1 : Fin 2) * 2 + 1 * (j 1).val = (j 1).val; rw [e1]; omega

/-- The first bias's block is the first quantized bias array. -/
theorem blk3 (c : Dev nD) (t : Fin cfg0.N) : iblk m c 3 t = V m c main_v23 := by
  funext j
  show V m c main_v23 (((cfg0.win 3).blk t).view.emb j) = V m c main_v23 j
  refine congrArg (V m c main_v23) (funext fun a => Fin.ext ?_)
  obtain ⟨-, -, -, -, -, -, -, -, e0, -⟩ := index_facts t
  match a with
  | ⟨0, _⟩ => show win0_3.index t (0 : Fin 1) * 50 + 1 * (j 0).val = (j 0).val; rw [e0]; omega

/-- The second weight's block is the second quantized weight array. -/
theorem blk4 (c : Dev nD) (t : Fin cfg0.N) : iblk m c 4 t = V m c main_v33 := by
  funext j
  show V m c main_v33 (((cfg0.win 4).blk t).view.emb j) = V m c main_v33 j
  refine congrArg (V m c main_v33) (funext fun a => Fin.ext ?_)
  obtain ⟨-, -, -, -, -, -, -, -, -, e0, e1, -, -, -, -, -, -, -, -, -, -⟩ := index_facts t
  match a with
  | ⟨0, _⟩ => show win0_4.index t (0 : Fin 2) * 50 + 1 * (j 0).val = (j 0).val; rw [e0]; omega
  | ⟨1, _⟩ => show win0_4.index t (1 : Fin 2) * 50 + 1 * (j 1).val = (j 1).val; rw [e1]; omega

/-- The second bias's block is the second quantized bias array. -/
theorem blk5 (c : Dev nD) (t : Fin cfg0.N) : iblk m c 5 t = V m c main_v40 := by
  funext j
  show V m c main_v40 (((cfg0.win 5).blk t).view.emb j) = V m c main_v40 j
  refine congrArg (V m c main_v40) (funext fun a => Fin.ext ?_)
  obtain ⟨-, -, -, -, -, -, -, -, -, -, -, e0, -, -, -, -, -, -, -, -, -⟩ := index_facts t
  match a with
  | ⟨0, _⟩ => show win0_5.index t (0 : Fin 1) * 50 + 1 * (j 0).val = (j 0).val; rw [e0]; omega

/-- The third weight's block is the third quantized weight array. -/
theorem blk6 (c : Dev nD) (t : Fin cfg0.N) : iblk m c 6 t = V m c main_v50 := by
  funext j
  show V m c main_v50 (((cfg0.win 6).blk t).view.emb j) = V m c main_v50 j
  refine congrArg (V m c main_v50) (funext fun a => Fin.ext ?_)
  obtain ⟨-, -, -, -, -, -, -, -, -, -, -, -, e0, e1, -, -, -, -, -, -, -⟩ := index_facts t
  match a with
  | ⟨0, _⟩ => show win0_6.index t (0 : Fin 2) * 50 + 1 * (j 0).val = (j 0).val; rw [e0]; omega
  | ⟨1, _⟩ => show win0_6.index t (1 : Fin 2) * 50 + 1 * (j 1).val = (j 1).val; rw [e1]; omega

/-- The third bias's block is the third quantized bias array. -/
theorem blk7 (c : Dev nD) (t : Fin cfg0.N) : iblk m c 7 t = V m c main_v57 := by
  funext j
  show V m c main_v57 (((cfg0.win 7).blk t).view.emb j) = V m c main_v57 j
  refine congrArg (V m c main_v57) (funext fun a => Fin.ext ?_)
  obtain ⟨-, -, -, -, -, -, -, -, -, -, -, -, -, -, e0, -, -, -, -, -, -⟩ := index_facts t
  match a with
  | ⟨0, _⟩ => show win0_7.index t (0 : Fin 1) * 50 + 1 * (j 0).val = (j 0).val; rw [e0]; omega

/-- The fourth weight's block is the fourth quantized weight array. -/
theorem blk8 (c : Dev nD) (t : Fin cfg0.N) : iblk m c 8 t = V m c main_v67 := by
  funext j
  show V m c main_v67 (((cfg0.win 8).blk t).view.emb j) = V m c main_v67 j
  refine congrArg (V m c main_v67) (funext fun a => Fin.ext ?_)
  obtain ⟨-, -, -, -, -, -, -, -, -, -, -, -, -, -, -, e0, e1, -, -, -, -⟩ := index_facts t
  match a with
  | ⟨0, _⟩ => show win0_8.index t (0 : Fin 2) * 50 + 1 * (j 0).val = (j 0).val; rw [e0]; omega
  | ⟨1, _⟩ => show win0_8.index t (1 : Fin 2) * 50 + 1 * (j 1).val = (j 1).val; rw [e1]; omega

/-- The fourth bias's block is the fourth quantized bias array. -/
theorem blk9 (c : Dev nD) (t : Fin cfg0.N) : iblk m c 9 t = V m c main_v74 := by
  funext j
  show V m c main_v74 (((cfg0.win 9).blk t).view.emb j) = V m c main_v74 j
  refine congrArg (V m c main_v74) (funext fun a => Fin.ext ?_)
  obtain ⟨-, -, -, -, -, -, -, -, -, -, -, -, -, -, -, -, -, e0, -, -, -⟩ := index_facts t
  match a with
  | ⟨0, _⟩ => show win0_9.index t (0 : Fin 1) * 50 + 1 * (j 0).val = (j 0).val; rw [e0]; omega

/-- The output weight's block is the output quantized weight array. -/
theorem blk10 (c : Dev nD) (t : Fin cfg0.N) : iblk m c 10 t = V m c main_v84 := by
  funext j
  show V m c main_v84 (((cfg0.win 10).blk t).view.emb j) = V m c main_v84 j
  refine congrArg (V m c main_v84) (funext fun a => Fin.ext ?_)
  obtain ⟨-, -, -, -, -, -, -, -, -, -, -, -, -, -, -, -, -, -, e0, e1, -⟩ := index_facts t
  match a with
  | ⟨0, _⟩ => show win0_10.index t (0 : Fin 2) * 2 + 1 * (j 0).val = (j 0).val; rw [e0]; omega
  | ⟨1, _⟩ => show win0_10.index t (1 : Fin 2) * 50 + 1 * (j 1).val = (j 1).val; rw [e1]; omega

/-- The output bias's block is the output quantized bias array. -/
theorem blk11 (c : Dev nD) (t : Fin cfg0.N) : iblk m c 11 t = V m c main_v91 := by
  funext j
  show V m c main_v91 (((cfg0.win 11).blk t).view.emb j) = V m c main_v91 j
  refine congrArg (V m c main_v91) (funext fun a => Fin.ext ?_)
  obtain ⟨-, -, -, -, -, -, -, -, -, -, -, -, -, -, -, -, -, -, -, -, e0⟩ := index_facts t
  match a with
  | ⟨0, _⟩ => show win0_11.index t (0 : Fin 1) * 2 + 1 * (j 0).val = (j 0).val; rw [e0]; omega

/-! ## The whole result, and what each point writes back -/

/-- The net of all 262144 rows, over the arrays as the region finds them: the stacked input at the scale's one entry,
    each quantized weight transposed, each quantized bias as a row. -/
def wholeNet (c : Dev nD) : S262144x2.Idx → EReal :=
  net (M := 262144) ((V m c main_v92 : S1x1.Idx → EReal) (ix2 (0 : Fin 1) (0 : Fin 1))) (V m c main_v2 : S262144x2.Idx → EReal)
    (transpose S2x50 [1, 0] (V m c main_v16 : S50x2.Idx → EReal) transposes_S50x2_p1_0_S2x50)
    (shapeCast S1x50 (V m c main_v23 : S50.Idx → EReal) shapeCasts_S50_S1x50)
    (transpose S50x50 [1, 0] (V m c main_v33 : S50x50.Idx → EReal) transposes_S50x50_p1_0_S50x50)
    (shapeCast S1x50 (V m c main_v40 : S50.Idx → EReal) shapeCasts_S50_S1x50)
    (transpose S50x50 [1, 0] (V m c main_v50 : S50x50.Idx → EReal) transposes_S50x50_p1_0_S50x50)
    (shapeCast S1x50 (V m c main_v57 : S50.Idx → EReal) shapeCasts_S50_S1x50)
    (transpose S50x50 [1, 0] (V m c main_v67 : S50x50.Idx → EReal) transposes_S50x50_p1_0_S50x50)
    (shapeCast S1x50 (V m c main_v74 : S50.Idx → EReal) shapeCasts_S50_S1x50)
    (transpose S50x2 [1, 0] (V m c main_v84 : S2x50.Idx → EReal) transposes_S2x50_p1_0_S50x2)
    (shapeCast S1x2 (V m c main_v91 : S2.Idx → EReal) shapeCasts_S2_S1x2)

/-- WHAT POINT `t` WRITES BACK is tile `t` of the whole net: the stored tile is the net of the loaded tile, and the
    loaded tile is rows `16384 t, …` of the stacked input. -/
theorem flushed_eq (c : Dev nD) (t : Fin cfg0.N) :
    (dats m 0 c).flushed 12 t = ((cfg0.win 12).blk t).view.read (Elt Ideal) (wholeNet m c) := by
  rw [Cert.KernelIdeal.Value.flushed12]
  unfold out0_12
  rw [View.canon_unit_zero zeros2]
  simp only [View.ld_unit_zero (S := S16384x2) zeros2, View.ld_unit_zero (S := S1x1) zeros2, View.ld_unit_zero (S := S50x2) zeros2,
    View.ld_unit_zero (S := S50) zeros1, View.ld_unit_zero (S := S50x50) zeros2, View.ld_unit_zero (S := S2x50) zeros2,
    View.ld_unit_zero (S := S2) zeros1]
  rw [stored_eq_net, blk1, blk2, blk3, blk4, blk5, blk6, blk7, blk8, blk9, blk10, blk11]
  funext y
  obtain ⟨-, -, c0, c1, -⟩ := index_facts t
  refine net_rows_apply (tile_rows m c t) _ _ _ _ _ _ _ _ _ _ _ y (((cfg0.win 12).blk t).view.emb y) ?_ ?_
  · show win0_12.index t (0 : Fin 2) * 16384 + 1 * (y 0).val = t.val * 16384 + (y 0).val
    rw [c0]; omega
  · show win0_12.index t (1 : Fin 2) * 2 + 1 * (y 1).val = (y 1).val
    rw [c1]; omega

/-! ## The sixteen tiles cover the result -/

/-- An index of the result is in point `t`'s tile iff each coordinate is in the tile's range on its axis. -/
theorem mem_tile (t : Fin cfg0.N) (i : S262144x2.Idx) :
    i ∈ ((cfg0.win 12).blk t).view.set ↔ ∀ a : Fin 2, win0_12.index t a * S16384x2.size a ≤ (i a).val ∧ (i a).val < win0_12.index t a * S16384x2.size a + S16384x2.size a := by
  show i ∈ ((View.whole main_v93).slice (win0_12.rect t)).set ↔ _
  rw [View.set_slice_whole, Rect.mem_set_unit]
  exact Iff.rfl

/-- Every one of the sixteen row blocks is some point's. -/
theorem tile_onto : ∀ q : Fin 16, ∃ t : Fin cfg0.N, win0_12.index t = ![q.val, 0] :=
  (by decide +kernel : ∀ q : Fin 16, ∃ t : Fin grid0.N, win0_12.index t = ![q.val, 0])

/-- Row `r` of the result is in the tile of the point `r / 16384`. -/
theorem covered (i : S262144x2.Idx) : ∃ t : Fin cfg0.N, (cfg0.win 12).flush t = true ∧ i ∈ ((cfg0.win 12).blk t).view.set := by
  have hi0 : (i 0).val < 262144 := (i 0).isLt
  have hi1 : (i 1).val < 2 := (i 1).isLt
  obtain ⟨t, ht⟩ := tile_onto ⟨(i 0).val / 16384, by omega⟩
  have q0 : win0_12.index t (0 : Fin 2) = (i 0).val / 16384 := congrFun ht 0
  have q1 : win0_12.index t (1 : Fin 2) = 0 := congrFun ht 1
  refine ⟨t, flush0_12 t, ?_⟩
  rw [mem_tile]
  intro a
  match a with
  | ⟨0, _⟩ => show win0_12.index t (0 : Fin 2) * 16384 ≤ (i 0).val ∧ (i 0).val < win0_12.index t (0 : Fin 2) * 16384 + 16384; omega
  | ⟨1, _⟩ => show win0_12.index t (1 : Fin 2) * 2 ≤ (i 1).val ∧ (i 1).val < win0_12.index t (1 : Fin 2) * 2 + 2; omega

/-- THE RESULT ARRAY after the run is the whole net. -/
theorem final (c : Dev nD) : (dats m 0 c).arrAt 12 cfg0.N = wholeNet m c :=
  (dats m 0 c).arrAt_eq_of_cover 12 (wholeNet m c) (fun t _ => flushed_eq m c t) covered

end Cert.KernelIdeal.Blocks

end
-- ==== Proof.KernelHost.lean ====
/-
  What the region finds in the arrays it stages: each is one of the reference's own host stages of the arguments.

  Before the kernel is launched the program stacks the two inputs, takes the input scale, and quantizes each weight and
  bias at its scale — operation for operation what the reference does before it takes the straight-through forms. So
  the stacked input the kernel tiles is the reference's stacked input, each staged weight and bias is the reference's
  quantized weight or bias, and the staged `[1, 1]` scale is the reference's scalar scale reshaped.
-/
import proofs.«123622_j54305566490841_1_alg».proof.Proof.Gen.KernelIdeal.Frame
import proofs.«123622_j54305566490841_1_alg».proof.Proof.RefRead

set_option maxRecDepth 16384

noncomputable section

namespace Cert.KernelIdeal.HostValues

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The stacked input. -/
theorem V_main_v2 (c : Dev nD) :
    (V m c main_v2 : S262144x2.Idx → EReal) = Cert.ReferenceIdeal.ReadP.val_main_v2 (F := Ideal) (m ((c : Thread nD τ).loc main_arg0)) (m ((c : Thread nD τ).loc main_arg1)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

/-- The first staged weight is the reference's first quantized weight. -/
theorem V_main_v16 (c : Dev nD) :
    (V m c main_v16 : S50x2.Idx → EReal) = Cert.ReferenceIdeal.ReadP.val_main_v24 (F := Ideal) (m ((c : Thread nD τ).loc main_arg2)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

/-- The first staged bias is the reference's first quantized bias (its scale is the input's times the weight's). -/
theorem V_main_v23 (c : Dev nD) :
    (V m c main_v23 : S50.Idx → EReal) = Cert.ReferenceIdeal.ReadP.val_main_v33 (F := Ideal) (m ((c : Thread nD τ).loc main_arg0)) (m ((c : Thread nD τ).loc main_arg1)) (m ((c : Thread nD τ).loc main_arg2)) (m ((c : Thread nD τ).loc main_arg3)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

/-- The second staged weight is the reference's second quantized weight. -/
theorem V_main_v33 (c : Dev nD) :
    (V m c main_v33 : S50x50.Idx → EReal) = Cert.ReferenceIdeal.ReadP.val_main_v59 (F := Ideal) (m ((c : Thread nD τ).loc main_arg4)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

/-- The second staged bias is the reference's second quantized bias. -/
theorem V_main_v40 (c : Dev nD) :
    (V m c main_v40 : S50.Idx → EReal) = Cert.ReferenceIdeal.ReadP.val_main_v68 (F := Ideal) (m ((c : Thread nD τ).loc main_arg4)) (m ((c : Thread nD τ).loc main_arg5)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

/-- The third staged weight is the reference's third quantized weight. -/
theorem V_main_v50 (c : Dev nD) :
    (V m c main_v50 : S50x50.Idx → EReal) = Cert.ReferenceIdeal.ReadP.val_main_v94 (F := Ideal) (m ((c : Thread nD τ).loc main_arg6)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

/-- The third staged bias is the reference's third quantized bias. -/
theorem V_main_v57 (c : Dev nD) :
    (V m c main_v57 : S50.Idx → EReal) = Cert.ReferenceIdeal.ReadP.val_main_v103 (F := Ideal) (m ((c : Thread nD τ).loc main_arg6)) (m ((c : Thread nD τ).loc main_arg7)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

/-- The fourth staged weight is the reference's fourth quantized weight. -/
theorem V_main_v67 (c : Dev nD) :
    (V m c main_v67 : S50x50.Idx → EReal) = Cert.ReferenceIdeal.ReadP.val_main_v129 (F := Ideal) (m ((c : Thread nD τ).loc main_arg8)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

/-- The fourth staged bias is the reference's fourth quantized bias. -/
theorem V_main_v74 (c : Dev nD) :
    (V m c main_v74 : S50.Idx → EReal) = Cert.ReferenceIdeal.ReadP.val_main_v138 (F := Ideal) (m ((c : Thread nD τ).loc main_arg8)) (m ((c : Thread nD τ).loc main_arg9)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

/-- The staged output weight is the reference's quantized output weight. -/
theorem V_main_v84 (c : Dev nD) :
    (V m c main_v84 : S2x50.Idx → EReal) = Cert.ReferenceIdeal.ReadP.val_main_v164 (F := Ideal) (m ((c : Thread nD τ).loc main_arg10)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

/-- The staged output bias is the reference's quantized output bias. -/
theorem V_main_v91 (c : Dev nD) :
    (V m c main_v91 : S2.Idx → EReal) = Cert.ReferenceIdeal.ReadP.val_main_v173 (F := Ideal) (m ((c : Thread nD τ).loc main_arg10)) (m ((c : Thread nD τ).loc main_arg11)) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

/-- The staged `[1, 1]` scale is the reference's scalar input scale, reshaped. -/
theorem V_main_v92 (c : Dev nD) :
    (V m c main_v92 : S1x1.Idx → EReal) = shapeCast S1x1 (Cert.ReferenceIdeal.ReadP.val_main_v6 (F := Ideal) (m ((c : Thread nD τ).loc main_arg0)) (m ((c : Thread nD τ).loc main_arg1))) shapeCasts_S_S1x1 := by
  dsimp only [Gen.V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, List.flatten_cons, List.flatten_nil, List.append_nil, List.cons_append, List.nil_append]
  after_results_simp
  rfl

end Cert.KernelIdeal.HostValues

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«123622_j54305566490841_1_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.HostSpelling.lean ====
/-
  The host's spelling of the net's steps, read as the net's own functions.

  On the host a clip is a `maximum` and a `minimum` against scalars broadcast to the array's shape; a quantizer divides
  by a broadcast scale, rounds, clips to `[-127, 127]` and multiplies by the broadcast scale again; the reference then
  takes the straight-through form `a + (q - a)` of each quantizer. A scalar broadcast to any shape reads the scalar at
  every index, so entry by entry these are `clip`, `quant` and `ste`. An activation's straight-through form is taken
  around a value clipped to `[-1, 1]`, which is real, so it is the activation itself; a weight's or a bias's is taken
  around the array itself, and is the quantized array wherever that array's entries are real numbers. A layer is a
  `dot_general` over the plain dimension numbers plus a vector broadcast to a row and then over the rows.
-/
import proofs.«123622_j54305566490841_1_alg».proof.Proof.QuantNet
import proofs.«123622_j54305566490841_1_alg».proof.Proof.LibRowBiasHost
import Idealize.ShloMosaic.Lib.Pipeline.Value
import Idealize.ShloMosaic.PureOps.Ideal.Laws

noncomputable section

namespace Cert.HostSpelling

open Idealize.ShloMosaic Idealize.ShloMosaic.ValueIdx Cert.LibPlainDot Cert.LibRowBias Cert.QuantNet

variable {S : Shape}

/-- A scalar broadcast to any shape reads the scalar, at every index. -/
theorem bcast0_apply {α : Type} (h : (⟨0, ![]⟩ : Shape).BroadcastsInDim S ![]) (y : (⟨0, ![]⟩ : Shape).Idx → α) (i : S.Idx) :
    broadcastInDim S ![] h y i = y ix0 :=
  broadcastInDim_apply _ h y i ix0 (fun a => a.elim0)

/-- A clip against two broadcast scalar constants is `clip` at the constants' values, entry by entry. -/
theorem clip_host (h : (⟨0, ![]⟩ : Shape).BroadcastsInDim S ![]) (lo hi : BitVec 32) (x : FVec Ideal S .f32) :
    minimumf (broadcastInDim S ![] h (id (constant (F := Ideal) ⟨0, ![]⟩ .f32 hi)))
        (maximumf (broadcastInDim S ![] h (id (constant (F := Ideal) ⟨0, ![]⟩ .f32 lo))) x)
      = fun i => clip (Ideal.ofBits .f32 lo) (Ideal.ofBits .f32 hi) (x i) := by
  funext i
  show min (broadcastInDim S ![] h (id (constant (F := Ideal) ⟨0, ![]⟩ .f32 hi)) i)
      (max (broadcastInDim S ![] h (id (constant (F := Ideal) ⟨0, ![]⟩ .f32 lo)) i) (x i)) = _
  rw [bcast0_apply, bcast0_apply]
  rfl

/-- The host's quantizer at a broadcast scalar scale `s` is `quant` at the scale's value, entry by entry. -/
theorem quant_host (h : (⟨0, ![]⟩ : Shape).BroadcastsInDim S ![]) (s : FVec Ideal ⟨0, ![]⟩ .f32) (x : FVec Ideal S .f32) :
    mulf (minimumf (broadcastInDim S ![] h (id (constant (F := Ideal) ⟨0, ![]⟩ .f32 0x42FE0000#32)))
        (maximumf (broadcastInDim S ![] h (id (constant (F := Ideal) ⟨0, ![]⟩ .f32 0xC2FE0000#32)))
          (Host.roundeven (Host.divf x (broadcastInDim S ![] h s)))))
      (broadcastInDim S ![] h s)
      = fun i => quant (s ix0) (x i) := by
  rw [clip_host]
  funext i
  show clip _ _ (rne (Ideal.div (x i) (broadcastInDim S ![] h s i))) * broadcastInDim S ![] h s i = _
  rw [bcast0_apply]
  rfl

/-- The straight-through form around an array of real numbers is the replacement. -/
theorem ste_host (a q : FVec Ideal S .f32) (ha : ∀ i, ∃ r : ℝ, a i = (r : EReal)) : addf a (subf q a) = q :=
  funext fun i => ste_of_real (ha i) (q i)

/-- The host's activation in its straight-through form — clip to `[-1, 1]`, quantize at the broadcast constant
    `1/127`, and `a + (q - a)` around the clipped value — is the activation, entry by entry. -/
theorem act_host (h : (⟨0, ![]⟩ : Shape).BroadcastsInDim S ![]) (x : FVec Ideal S .f32) :
    addf (minimumf (broadcastInDim S ![] h (id (constant (F := Ideal) ⟨0, ![]⟩ .f32 0x3F800000#32)))
          (maximumf (broadcastInDim S ![] h (id (constant (F := Ideal) ⟨0, ![]⟩ .f32 0xBF800000#32))) x))
      (subf
        (mulf (minimumf (broadcastInDim S ![] h (id (constant (F := Ideal) ⟨0, ![]⟩ .f32 0x42FE0000#32)))
            (maximumf (broadcastInDim S ![] h (id (constant (F := Ideal) ⟨0, ![]⟩ .f32 0xC2FE0000#32)))
              (Host.roundeven (Host.divf
                (minimumf (broadcastInDim S ![] h (id (constant (F := Ideal) ⟨0, ![]⟩ .f32 0x3F800000#32)))
                  (maximumf (broadcastInDim S ![] h (id (constant (F := Ideal) ⟨0, ![]⟩ .f32 0xBF800000#32))) x))
                (broadcastInDim S ![] h (constant (F := Ideal) ⟨0, ![]⟩ .f32 0x3C010204#32))))))
          (broadcastInDim S ![] h (constant (F := Ideal) ⟨0, ![]⟩ .f32 0x3C010204#32)))
        (minimumf (broadcastInDim S ![] h (id (constant (F := Ideal) ⟨0, ![]⟩ .f32 0x3F800000#32)))
          (maximumf (broadcastInDim S ![] h (id (constant (F := Ideal) ⟨0, ![]⟩ .f32 0xBF800000#32))) x)))
      = fun i => act (x i) := by
  rw [clip_host h 0xBF800000#32 0x3F800000#32 x, quant_host h]
  funext i
  exact actSte_eq (x i)

/-- One layer as the host spells it: a `dot_general` over the plain dimension numbers plus a vector broadcast to a
    `[1, N]` row and then over the `M` rows. -/
theorem layer_host {M K N : ℕ} (d : DotDims ⟨2, ![M, K]⟩ ⟨2, ![K, N]⟩ ⟨2, ![M, N]⟩) (hd : d = DotDims.plain M K N)
    (a : FVec Ideal ⟨2, ![M, K]⟩ .f32) (Wt : FVec Ideal ⟨2, ![K, N]⟩ .f32) (bv : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral d none a Wt) (broadcastInDim ⟨2, ![M, N]⟩ ![0, 1] h2 (broadcastInDim ⟨2, ![1, N]⟩ ![1] h1 bv))
      = layer (M := M) (K := K) (N := N) a Wt (shapeCast ⟨2, ![1, N]⟩ bv hc) := by
  subst hd
  rw [addf_bcastRow _ bv h1 h2 hc]
  exact congrArg (fun z => rowBias (M := M) (N := N) z (shapeCast ⟨2, ![1, N]⟩ bv hc)) (dotGeneral_plain none _ a Wt)

end Cert.HostSpelling

end
-- ==== Proof.RefStages.lean ====
/-
  The reference, layer by layer, as the net.

  The reference stacks the two inputs into `X`, takes the scale `s` from the largest magnitude in `X`, and replaces `X` by
  the straight-through form of its quantization at `s`; each weight and bias is replaced by the straight-through form
  of its own quantization; each layer is a `dot_general` against the transposed weight plus the broadcast bias, and each
  hidden layer is followed by the activation in its straight-through form. The activation's form is the activation
  (no hypothesis); the inputs', weights' and biases' forms are the quantized arrays where those arrays hold real
  numbers. Under those hypotheses the reference's result is `target`: the net at scale `s` of `X`, over the quantized
  weights transposed and the quantized biases as rows.
-/
import proofs.«123622_j54305566490841_1_alg».proof.Proof.RefRead
import proofs.«123622_j54305566490841_1_alg».proof.Proof.HostSpelling

noncomputable section

namespace Cert.ReferenceIdeal.Stages

open Idealize.ShloMosaic Idealize.ShloMosaic.ValueIdx Cert.LibPlainDot Cert.LibRowBias Cert.QuantNet Cert.HostSpelling
open Cert.ReferenceIdeal Cert.ReferenceIdeal.Gen Cert.ReferenceIdeal.ReadP

/-- Every entry of the array is a real number. -/
def AllReal {S : Shape} (a : FVec Ideal S .f32) : Prop := ∀ i, ∃ r : ℝ, a i = (r : EReal)

/-! ## The input -/

/-- The stacked input, quantized at the scale and in straight-through form, is its quantization where it is real. -/
theorem v14_eq (x0 x1 : FVec Ideal S262144 .f32) (hX : AllReal (val_main_v2 (F := Ideal) x0 x1)) :
    val_main_v14 (F := Ideal) x0 x1 = fun i => quant (val_main_v6 (F := Ideal) x0 x1 ix0) (val_main_v2 (F := Ideal) x0 x1 i) :=
  (ste_host (val_main_v2 (F := Ideal) x0 x1) (val_main_v12 (F := Ideal) x0 x1) hX).trans
    (quant_host bcast_S_S262144x2 (val_main_v6 (F := Ideal) x0 x1) (val_main_v2 (F := Ideal) x0 x1))

/-! ## The weights and biases -/

/-- The first weight: the straight-through form around a real array is the quantized array. -/
theorem v26_eq (x2 : FVec Ideal S50x2 .f32) (h : AllReal x2) :
    val_main_v26 (F := Ideal) x2 = val_main_v24 (F := Ideal) x2 :=
  ste_host x2 (val_main_v24 (F := Ideal) x2) h

/-- The first bias: the straight-through form around a real array is the quantized array. -/
theorem v35_eq (x0 : FVec Ideal S262144 .f32) (x1 : FVec Ideal S262144 .f32) (x2 : FVec Ideal S50x2 .f32) (x3 : FVec Ideal S50 .f32) (h : AllReal x3) :
    val_main_v35 (F := Ideal) x0 x1 x2 x3 = val_main_v33 (F := Ideal) x0 x1 x2 x3 :=
  ste_host x3 (val_main_v33 (F := Ideal) x0 x1 x2 x3) h

/-- The second weight: the straight-through form around a real array is the quantized array. -/
theorem v61_eq (x4 : FVec Ideal S50x50 .f32) (h : AllReal x4) :
    val_main_v61 (F := Ideal) x4 = val_main_v59 (F := Ideal) x4 :=
  ste_host x4 (val_main_v59 (F := Ideal) x4) h

/-- The second bias: the straight-through form around a real array is the quantized array. -/
theorem v70_eq (x4 : FVec Ideal S50x50 .f32) (x5 : FVec Ideal S50 .f32) (h : AllReal x5) :
    val_main_v70 (F := Ideal) x4 x5 = val_main_v68 (F := Ideal) x4 x5 :=
  ste_host x5 (val_main_v68 (F := Ideal) x4 x5) h

/-- The third weight: the straight-through form around a real array is the quantized array. -/
theorem v96_eq (x6 : FVec Ideal S50x50 .f32) (h : AllReal x6) :
    val_main_v96 (F := Ideal) x6 = val_main_v94 (F := Ideal) x6 :=
  ste_host x6 (val_main_v94 (F := Ideal) x6) h

/-- The third bias: the straight-through form around a real array is the quantized array. -/
theorem v105_eq (x6 : FVec Ideal S50x50 .f32) (x7 : FVec Ideal S50 .f32) (h : AllReal x7) :
    val_main_v105 (F := Ideal) x6 x7 = val_main_v103 (F := Ideal) x6 x7 :=
  ste_host x7 (val_main_v103 (F := Ideal) x6 x7) h

/-- The fourth weight: the straight-through form around a real array is the quantized array. -/
theorem v131_eq (x8 : FVec Ideal S50x50 .f32) (h : AllReal x8) :
    val_main_v131 (F := Ideal) x8 = val_main_v129 (F := Ideal) x8 :=
  ste_host x8 (val_main_v129 (F := Ideal) x8) h

/-- The fourth bias: the straight-through form around a real array is the quantized array. -/
theorem v140_eq (x8 : FVec Ideal S50x50 .f32) (x9 : FVec Ideal S50 .f32) (h : AllReal x9) :
    val_main_v140 (F := Ideal) x8 x9 = val_main_v138 (F := Ideal) x8 x9 :=
  ste_host x9 (val_main_v138 (F := Ideal) x8 x9) h

/-- The output weight: the straight-through form around a real array is the quantized array. -/
theorem v166_eq (x10 : FVec Ideal S2x50 .f32) (h : AllReal x10) :
    val_main_v166 (F := Ideal) x10 = val_main_v164 (F := Ideal) x10 :=
  ste_host x10 (val_main_v164 (F := Ideal) x10) h

/-- The output bias: the straight-through form around a real array is the quantized array. -/
theorem v175_eq (x10 : FVec Ideal S2x50 .f32) (x11 : FVec Ideal S2 .f32) (h : AllReal x11) :
    val_main_v175 (F := Ideal) x10 x11 = val_main_v173 (F := Ideal) x10 x11 :=
  ste_host x11 (val_main_v173 (F := Ideal) x10 x11) h

/-! ## The layers and the activations -/

/-- The first layer. -/
theorem v40_eq (x0 : FVec Ideal S262144 .f32) (x1 : FVec Ideal S262144 .f32) (x2 : FVec Ideal S50x2 .f32) (x3 : FVec Ideal S50 .f32) :
    val_main_v40 (F := Ideal) x0 x1 x2 x3 = layer (M := 262144) (K := 2) (N := 50) (val_main_v14 (F := Ideal) x0 x1) (val_main_v36 (F := Ideal) x2) (shapeCast ⟨2, ![1, 50]⟩ (val_main_v35 (F := Ideal) x0 x1 x2 x3) (by decide)) :=
  layer_host dot_S262144x2_S2x50_S262144x50_1_0_0_1_n_n rfl (val_main_v14 (F := Ideal) x0 x1) (val_main_v36 (F := Ideal) x2) (val_main_v35 (F := Ideal) x0 x1 x2 x3) bcast_S50_S1x50_1 bcast_S1x50_S262144x50_0_1 (by decide)

/-- The first activation. -/
theorem v49_eq (x0 : FVec Ideal S262144 .f32) (x1 : FVec Ideal S262144 .f32) (x2 : FVec Ideal S50x2 .f32) (x3 : FVec Ideal S50 .f32) :
    val_main_v49 (F := Ideal) x0 x1 x2 x3 = fun i => act (val_main_v40 (F := Ideal) x0 x1 x2 x3 i) :=
  act_host bcast_S_S262144x50 (val_main_v40 (F := Ideal) x0 x1 x2 x3)

/-- The second layer. -/
theorem v75_eq (x0 : FVec Ideal S262144 .f32) (x1 : FVec Ideal S262144 .f32) (x2 : FVec Ideal S50x2 .f32) (x3 : FVec Ideal S50 .f32) (x4 : FVec Ideal S50x50 .f32) (x5 : FVec Ideal S50 .f32) :
    val_main_v75 (F := Ideal) x0 x1 x2 x3 x4 x5 = layer (M := 262144) (K := 50) (N := 50) (val_main_v49 (F := Ideal) x0 x1 x2 x3) (val_main_v71 (F := Ideal) x4) (shapeCast ⟨2, ![1, 50]⟩ (val_main_v70 (F := Ideal) x4 x5) (by decide)) :=
  layer_host dot_S262144x50_S50x50_S262144x50_1_0_0_1_n_n rfl (val_main_v49 (F := Ideal) x0 x1 x2 x3) (val_main_v71 (F := Ideal) x4) (val_main_v70 (F := Ideal) x4 x5) bcast_S50_S1x50_1 bcast_S1x50_S262144x50_0_1 (by decide)

/-- The second activation. -/
theorem v84_eq (x0 : FVec Ideal S262144 .f32) (x1 : FVec Ideal S262144 .f32) (x2 : FVec Ideal S50x2 .f32) (x3 : FVec Ideal S50 .f32) (x4 : FVec Ideal S50x50 .f32) (x5 : FVec Ideal S50 .f32) :
    val_main_v84 (F := Ideal) x0 x1 x2 x3 x4 x5 = fun i => act (val_main_v75 (F := Ideal) x0 x1 x2 x3 x4 x5 i) :=
  act_host bcast_S_S262144x50 (val_main_v75 (F := Ideal) x0 x1 x2 x3 x4 x5)

/-- The third layer. -/
theorem v110_eq (x0 : FVec Ideal S262144 .f32) (x1 : FVec Ideal S262144 .f32) (x2 : FVec Ideal S50x2 .f32) (x3 : FVec Ideal S50 .f32) (x4 : FVec Ideal S50x50 .f32) (x5 : FVec Ideal S50 .f32) (x6 : FVec Ideal S50x50 .f32) (x7 : FVec Ideal S50 .f32) :
    val_main_v110 (F := Ideal) x0 x1 x2 x3 x4 x5 x6 x7 = layer (M := 262144) (K := 50) (N := 50) (val_main_v84 (F := Ideal) x0 x1 x2 x3 x4 x5) (val_main_v106 (F := Ideal) x6) (shapeCast ⟨2, ![1, 50]⟩ (val_main_v105 (F := Ideal) x6 x7) (by decide)) :=
  layer_host dot_S262144x50_S50x50_S262144x50_1_0_0_1_n_n rfl (val_main_v84 (F := Ideal) x0 x1 x2 x3 x4 x5) (val_main_v106 (F := Ideal) x6) (val_main_v105 (F := Ideal) x6 x7) bcast_S50_S1x50_1 bcast_S1x50_S262144x50_0_1 (by decide)

/-- The third activation. -/
theorem v119_eq (x0 : FVec Ideal S262144 .f32) (x1 : FVec Ideal S262144 .f32) (x2 : FVec Ideal S50x2 .f32) (x3 : FVec Ideal S50 .f32) (x4 : FVec Ideal S50x50 .f32) (x5 : FVec Ideal S50 .f32) (x6 : FVec Ideal S50x50 .f32) (x7 : FVec Ideal S50 .f32) :
    val_main_v119 (F := Ideal) x0 x1 x2 x3 x4 x5 x6 x7 = fun i => act (val_main_v110 (F := Ideal) x0 x1 x2 x3 x4 x5 x6 x7 i) :=
  act_host bcast_S_S262144x50 (val_main_v110 (F := Ideal) x0 x1 x2 x3 x4 x5 x6 x7)

/-- The fourth layer. -/
theorem v145_eq (x0 : FVec Ideal S262144 .f32) (x1 : FVec Ideal S262144 .f32) (x2 : FVec Ideal S50x2 .f32) (x3 : FVec Ideal S50 .f32) (x4 : FVec Ideal S50x50 .f32) (x5 : FVec Ideal S50 .f32) (x6 : FVec Ideal S50x50 .f32) (x7 : FVec Ideal S50 .f32) (x8 : FVec Ideal S50x50 .f32) (x9 : FVec Ideal S50 .f32) :
    val_main_v145 (F := Ideal) x0 x1 x2 x3 x4 x5 x6 x7 x8 x9 = layer (M := 262144) (K := 50) (N := 50) (val_main_v119 (F := Ideal) x0 x1 x2 x3 x4 x5 x6 x7) (val_main_v141 (F := Ideal) x8) (shapeCast ⟨2, ![1, 50]⟩ (val_main_v140 (F := Ideal) x8 x9) (by decide)) :=
  layer_host dot_S262144x50_S50x50_S262144x50_1_0_0_1_n_n rfl (val_main_v119 (F := Ideal) x0 x1 x2 x3 x4 x5 x6 x7) (val_main_v141 (F := Ideal) x8) (val_main_v140 (F := Ideal) x8 x9) bcast_S50_S1x50_1 bcast_S1x50_S262144x50_0_1 (by decide)

/-- The fourth activation. -/
theorem v154_eq (x0 : FVec Ideal S262144 .f32) (x1 : FVec Ideal S262144 .f32) (x2 : FVec Ideal S50x2 .f32) (x3 : FVec Ideal S50 .f32) (x4 : FVec Ideal S50x50 .f32) (x5 : FVec Ideal S50 .f32) (x6 : FVec Ideal S50x50 .f32) (x7 : FVec Ideal S50 .f32) (x8 : FVec Ideal S50x50 .f32) (x9 : FVec Ideal S50 .f32) :
    val_main_v154 (F := Ideal) x0 x1 x2 x3 x4 x5 x6 x7 x8 x9 = fun i => act (val_main_v145 (F := Ideal) x0 x1 x2 x3 x4 x5 x6 x7 x8 x9 i) :=
  act_host bcast_S_S262144x50 (val_main_v145 (F := Ideal) x0 x1 x2 x3 x4 x5 x6 x7 x8 x9)

/-- The output layer. -/
theorem v180_eq (x0 : FVec Ideal S262144 .f32) (x1 : FVec Ideal S262144 .f32) (x2 : FVec Ideal S50x2 .f32) (x3 : FVec Ideal S50 .f32) (x4 : FVec Ideal S50x50 .f32) (x5 : FVec Ideal S50 .f32) (x6 : FVec Ideal S50x50 .f32) (x7 : FVec Ideal S50 .f32) (x8 : FVec Ideal S50x50 .f32) (x9 : FVec Ideal S50 .f32) (x10 : FVec Ideal S2x50 .f32) (x11 : FVec Ideal S2 .f32) :
    val_main_v180 (F := Ideal) x0 x1 x2 x3 x4 x5 x6 x7 x8 x9 x10 x11 = layer (M := 262144) (K := 50) (N := 2) (val_main_v154 (F := Ideal) x0 x1 x2 x3 x4 x5 x6 x7 x8 x9) (val_main_v176 (F := Ideal) x10) (shapeCast ⟨2, ![1, 2]⟩ (val_main_v175 (F := Ideal) x10 x11) (by decide)) :=
  layer_host dot_S262144x50_S50x2_S262144x2_1_0_0_1_n_n rfl (val_main_v154 (F := Ideal) x0 x1 x2 x3 x4 x5 x6 x7 x8 x9) (val_main_v176 (F := Ideal) x10) (val_main_v175 (F := Ideal) x10 x11) bcast_S2_S1x2_1 bcast_S1x2_S262144x2_0_1 (by decide)

/-! ## The result -/

/-- The net at the input's scale of the stacked input, over the quantized weights transposed and the quantized biases
    as rows: what both programs compute. -/
def target (x0 x1 : FVec Ideal S262144 .f32) (x2 : FVec Ideal S50x2 .f32) (x3 : FVec Ideal S50 .f32) (x4 : FVec Ideal S50x50 .f32) (x5 : FVec Ideal S50 .f32)
    (x6 : FVec Ideal S50x50 .f32) (x7 : FVec Ideal S50 .f32) (x8 : FVec Ideal S50x50 .f32) (x9 : FVec Ideal S50 .f32) (x10 : FVec Ideal S2x50 .f32) (x11 : FVec Ideal S2 .f32) : S262144x2.Idx → EReal :=
  net (M := 262144) (val_main_v6 (F := Ideal) x0 x1 ix0) (val_main_v2 (F := Ideal) x0 x1)
    (transpose S2x50 [1, 0] (val_main_v24 (F := Ideal) x2) transposes_S50x2_S2x50_1_0) (shapeCast ⟨2, ![1, 50]⟩ (val_main_v33 (F := Ideal) x0 x1 x2 x3) (by decide))
    (transpose S50x50 [1, 0] (val_main_v59 (F := Ideal) x4) transposes_S50x50_S50x50_1_0) (shapeCast ⟨2, ![1, 50]⟩ (val_main_v68 (F := Ideal) x4 x5) (by decide))
    (transpose S50x50 [1, 0] (val_main_v94 (F := Ideal) x6) transposes_S50x50_S50x50_1_0) (shapeCast ⟨2, ![1, 50]⟩ (val_main_v103 (F := Ideal) x6 x7) (by decide))
    (transpose S50x50 [1, 0] (val_main_v129 (F := Ideal) x8) transposes_S50x50_S50x50_1_0) (shapeCast ⟨2, ![1, 50]⟩ (val_main_v138 (F := Ideal) x8 x9) (by decide))
    (transpose S50x2 [1, 0] (val_main_v164 (F := Ideal) x10) transposes_S2x50_S50x2_1_0) (shapeCast ⟨2, ![1, 2]⟩ (val_main_v173 (F := Ideal) x10 x11) (by decide))

/-- THE REFERENCE'S RESULT is `target`, where the stacked input and every weight and bias hold real numbers. -/
theorem result_eq (x0 x1 : FVec Ideal S262144 .f32) (x2 : FVec Ideal S50x2 .f32) (x3 : FVec Ideal S50 .f32) (x4 : FVec Ideal S50x50 .f32) (x5 : FVec Ideal S50 .f32)
    (x6 : FVec Ideal S50x50 .f32) (x7 : FVec Ideal S50 .f32) (x8 : FVec Ideal S50x50 .f32) (x9 : FVec Ideal S50 .f32) (x10 : FVec Ideal S2x50 .f32) (x11 : FVec Ideal S2 .f32)
    (hX : AllReal (val_main_v2 (F := Ideal) x0 x1)) (h2 : AllReal x2) (h3 : AllReal x3) (h4 : AllReal x4) (h5 : AllReal x5) (h6 : AllReal x6)
    (h7 : AllReal x7) (h8 : AllReal x8) (h9 : AllReal x9) (h10 : AllReal x10) (h11 : AllReal x11) :
    val_main_v180 (F := Ideal) x0 x1 x2 x3 x4 x5 x6 x7 x8 x9 x10 x11 = target x0 x1 x2 x3 x4 x5 x6 x7 x8 x9 x10 x11 := by
  rw [v180_eq, v154_eq, v145_eq, v119_eq, v110_eq, v84_eq, v75_eq, v49_eq, v40_eq, v14_eq x0 x1 hX]
  unfold val_main_v36 val_main_v71 val_main_v106 val_main_v141 val_main_v176
  rw [v26_eq x2 h2, v35_eq x0 x1 x2 x3 h3, v61_eq x4 h4, v70_eq x4 x5 h5, v96_eq x6 h6, v105_eq x6 x7 h7, v131_eq x8 h8,
    v140_eq x8 x9 h9, v166_eq x10 h10, v175_eq x10 x11 h11]
  rfl

end Cert.ReferenceIdeal.Stages

end
-- ==== Proof.KernelTarget.lean ====
/-
  The kernel's whole net is the common target.

  The region finds, in the arrays it stages, the reference's own host stages of the arguments (the stacked input, the
  scalar scale reshaped, each quantized weight and bias): so the net of all the rows over those arrays is `target` of the
  arguments — the two sides spell the transposes and the casts with different proofs of the same shape facts, nothing
  more.
-/
import proofs.«123622_j54305566490841_1_alg».proof.Proof.KernelBlocks
import proofs.«123622_j54305566490841_1_alg».proof.Proof.KernelHost
import proofs.«123622_j54305566490841_1_alg».proof.Proof.RefStages

set_option maxRecDepth 16384

noncomputable section

namespace Cert.KernelIdeal.Target

open Idealize.ShloMosaic Idealize.ShloMosaic.TcCoe Idealize.SL.Sem Idealize.ShloMosaic.ValueIdx
open Cert.KernelIdeal Cert.KernelIdeal.Gen

/-- A scalar reshaped to `[1, 1]` reads, at its one entry, the scalar. -/
theorem scalar_reshape_entry {α : Type} (y : (⟨0, ![]⟩ : Shape).Idx → α) (h : (⟨0, ![]⟩ : Shape).ShapeCasts ⟨2, ![1, 1]⟩) :
    shapeCast ⟨2, ![1, 1]⟩ y h (ix2 (0 : Fin 1) (0 : Fin 1)) = y ix0 :=
  shapeCast_apply y h (ix2 (0 : Fin 1) (0 : Fin 1)) ix0 (by
    have h0 : ((⟨0, ![]⟩ : Shape).rowMajor ix0).val = 0 :=
      Nat.lt_one_iff.mp (show ((⟨0, ![]⟩ : Shape).rowMajor ix0).val < 1 from ((⟨0, ![]⟩ : Shape).rowMajor ix0).isLt)
    rw [Shape.rowMajor_val_two, h0]
    rfl)

variable (m : (ℓ : Loc nD τ sig) → Buf (Elt Ideal) ℓ)

/-- The net of all the rows over the staged arrays is the target of the arguments. -/
theorem wholeNet_eq_target (c : Dev nD) :
    Cert.KernelIdeal.Blocks.wholeNet m c
      = Cert.ReferenceIdeal.Stages.target (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) := by
  unfold Cert.KernelIdeal.Blocks.wholeNet Cert.ReferenceIdeal.Stages.target
  rw [Cert.KernelIdeal.HostValues.V_main_v92, scalar_reshape_entry, Cert.KernelIdeal.HostValues.V_main_v2, Cert.KernelIdeal.HostValues.V_main_v16,
    Cert.KernelIdeal.HostValues.V_main_v23, Cert.KernelIdeal.HostValues.V_main_v33, Cert.KernelIdeal.HostValues.V_main_v40,
    Cert.KernelIdeal.HostValues.V_main_v50, Cert.KernelIdeal.HostValues.V_main_v57, Cert.KernelIdeal.HostValues.V_main_v67,
    Cert.KernelIdeal.HostValues.V_main_v74, Cert.KernelIdeal.HostValues.V_main_v84, Cert.KernelIdeal.HostValues.V_main_v91]

/-- THE KERNEL'S RESULT ARRAY after the run is the target of the arguments. -/
theorem final_eq_target (c : Dev nD) :
    (dats m 0 c).arrAt 12 cfg0.N
      = Cert.ReferenceIdeal.Stages.target (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) :=
  (Cert.KernelIdeal.Blocks.final m c).trans (wholeNet_eq_target m c)

end Cert.KernelIdeal.Target

end
-- ==== Proof.StackedInput.lean ====
/-
  The stacked input holds real numbers when the two inputs do.

  The stacked input `X` is the two length-262144 inputs, each broadcast to a column, joined along the second axis: its
  entry `(n, 0)` is the first input at `n`, its entry `(n, 1)` the second input at `n`.
-/
import proofs.«123622_j54305566490841_1_alg».proof.Proof.RefRead

noncomputable section

namespace Cert.ReferenceIdeal.Stacked

open Idealize.ShloMosaic Idealize.ShloMosaic.ValueIdx
open Cert.ReferenceIdeal Cert.ReferenceIdeal.Gen Cert.ReferenceIdeal.ReadP

/-- Column 0 of the stacked input is the first input. -/
theorem stacked_left (x0 x1 : FVec Ideal S262144 .f32) (n : Fin 262144) :
    val_main_v2 (F := Ideal) x0 x1 (ix2 n (0 : Fin 2)) = x0 (ix1 n) := by
  unfold val_main_v2
  refine (concatenate_pair_apply_left (1 : Fin 2) (val_main_v0 (F := Ideal) x0) (val_main_v1 (F := Ideal) x1)
    concatenates_S262144x1_S262144x1_S262144x2_d1 (ix2 n (0 : Fin 2)) rfl (ix2 n (0 : Fin 1)) (fun b => ?_)).trans ?_
  · match b with
    | ⟨0, _⟩ => rfl
    | ⟨1, _⟩ => rfl
  · rw [val_main_v0_apply]
    exact congrArg x0 (funext fun a => by match a with | ⟨0, _⟩ => rfl)

/-- Column 1 of the stacked input is the second input. -/
theorem stacked_right (x0 x1 : FVec Ideal S262144 .f32) (n : Fin 262144) :
    val_main_v2 (F := Ideal) x0 x1 (ix2 n (1 : Fin 2)) = x1 (ix1 n) := by
  unfold val_main_v2
  refine (concatenate_pair_apply_right (1 : Fin 2) (val_main_v0 (F := Ideal) x0) (val_main_v1 (F := Ideal) x1)
    concatenates_S262144x1_S262144x1_S262144x2_d1 (ix2 n (1 : Fin 2)) rfl rfl (ix2 n (0 : Fin 1)) (fun b hb => ?_) ?_).trans ?_
  · match b with
    | ⟨0, _⟩ => rfl
    | ⟨1, _⟩ => exact absurd rfl hb
  · rfl
  · rw [val_main_v1_apply]
    exact congrArg x1 (funext fun a => by match a with | ⟨0, _⟩ => rfl)

/-- The stacked input holds real numbers when both inputs do. -/
theorem stacked_real (x0 x1 : FVec Ideal S262144 .f32) (h0 : ∀ i, ∃ r : ℝ, x0 i = (r : EReal)) (h1 : ∀ i, ∃ r : ℝ, x1 i = (r : EReal)) :
    ∀ i, ∃ r : ℝ, val_main_v2 (F := Ideal) x0 x1 i = (r : EReal) := by
  intro i
  obtain ⟨n, k, rfl⟩ : ∃ (n : Fin 262144) (k : Fin 2), i = ix2 n k := ⟨i 0, i 1, eq_ix2 i⟩
  rcases (by decide : ∀ k : Fin 2, k = 0 ∨ k = 1) k with rfl | rfl
  · rw [stacked_left]; exact h0 _
  · rw [stacked_right]; exact h1 _

end Cert.ReferenceIdeal.Stacked

end
-- ==== Proof.FiniteInputs.lean ====
/-
  The precondition, read back: every entry of every argument is a real number.

  The precondition compares each argument's magnitudes with `+∞` (the float word `0x7F800000`), takes `all` of each
  comparison, and `and`s the twelve answers; it says the answer is 1. An `and` that is 1 had both operands 1, an `all`
  that is 1 had a 1 at every index, and an extended real whose magnitude `max x (-x)` is below `+∞` is neither
  infinity: it is a real number.
-/
import proofs.«123622_j54305566490841_1_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.FiniteInputs

open Idealize.ShloMosaic Idealize.ShloMosaic.ValueIdx Cert.Pre_finite_inputs

instance : Subsingleton (⟨0, ![]⟩ : Shape).Idx := ⟨fun a b => funext fun d => d.elim0⟩

/-- The word `0x7F800000` denotes `+∞`. -/
theorem ofBits_inf : Ideal.ofBits .f32 0x7F800000#32 = ⊤ := by
  simp [Ideal.ofBits, Ideal.ieee]

/-- An extended real whose magnitude is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An array whose magnitudes are all below the broadcast word `0x7F800000` holds real numbers. -/
theorem allReal_of_all {S : Shape} {axes : List (Fin S.rank)} (hb : (⟨0, ![]⟩ : Shape).BroadcastsInDim S ![])
    (hr : S.ReducesTo axes ⟨0, ![]⟩) (hu : 0 < (⟨0, ![]⟩ : Shape).numel) (x : FVec Ideal S .f32)
    (h : Host.reduce IntOp.andi (cmpf .olt (Host.absf x) (broadcastInDim S ![] hb (constant (F := Ideal) ⟨0, ![]⟩ .f32 0x7F800000#32)))
      (constantI ⟨0, ![]⟩ 1 1#1) hr hu ix0 = 1#1) :
    ∀ i, ∃ r : ℝ, x i = (r : EReal) := by
  intro i
  have e := Host.reduce_andi_all _ _ hr hu ix0 h i
  have e' : Ideal.cmp .olt (max (x i) (-(x i)))
      (broadcastInDim S ![] hb (constant (F := Ideal) ⟨0, ![]⟩ .f32 0x7F800000#32) i) = 1#1 := e
  rw [broadcastInDim_apply _ hb _ i ix0 (fun a => a.elim0)] at e'
  have e'' : Ideal.cmp .olt (max (x i) (-(x i))) (Ideal.ofBits .f32 0x7F800000#32) = 1#1 := e'
  rw [ofBits_inf] at e''
  have hlt : max (x i) (-(x i)) < ⊤ := by
    by_contra hn
    simp [Ideal.cmp, hn] at e''
  exact real_of_abs_lt_top _ hlt

variable [Facts]

/-- Under the precondition every entry of each of the twelve arguments is a real number. -/
theorem inputs_real (a0 : FVec Ideal S262144 .f32) (a1 : FVec Ideal S262144 .f32) (a2 : FVec Ideal S50x2 .f32) (a3 : FVec Ideal S50 .f32) (a4 : FVec Ideal S50x50 .f32) (a5 : FVec Ideal S50 .f32) (a6 : FVec Ideal S50x50 .f32) (a7 : FVec Ideal S50 .f32) (a8 : FVec Ideal S50x50 .f32) (a9 : FVec Ideal S50 .f32) (a10 : FVec Ideal S2x50 .f32) (a11 : FVec Ideal S2 .f32)
    (h : fn (F := Ideal) a0 a1 a2 a3 a4 a5 a6 a7 a8 a9 a10 a11 = fun _ => 1#1) :
    (∀ i, ∃ r : ℝ, a0 i = (r : EReal))
    ∧ (∀ i, ∃ r : ℝ, a1 i = (r : EReal))
    ∧ (∀ i, ∃ r : ℝ, a2 i = (r : EReal))
    ∧ (∀ i, ∃ r : ℝ, a3 i = (r : EReal))
    ∧ (∀ i, ∃ r : ℝ, a4 i = (r : EReal))
    ∧ (∀ i, ∃ r : ℝ, a5 i = (r : EReal))
    ∧ (∀ i, ∃ r : ℝ, a6 i = (r : EReal))
    ∧ (∀ i, ∃ r : ℝ, a7 i = (r : EReal))
    ∧ (∀ i, ∃ r : ℝ, a8 i = (r : EReal))
    ∧ (∀ i, ∃ r : ℝ, a9 i = (r : EReal))
    ∧ (∀ i, ∃ r : ℝ, a10 i = (r : EReal))
    ∧ (∀ i, ∃ r : ℝ, a11 i = (r : EReal)) := by
  have h0 := congrFun h ix0
  unfold fn fn_part1 fn_part2 fn_part3 at h0
  dsimp only at h0
  obtain ⟨h0, g11⟩ := IntOp.andi_eq_one.1 h0
  obtain ⟨h0, g10⟩ := IntOp.andi_eq_one.1 h0
  obtain ⟨h0, g9⟩ := IntOp.andi_eq_one.1 h0
  obtain ⟨h0, g8⟩ := IntOp.andi_eq_one.1 h0
  obtain ⟨h0, g7⟩ := IntOp.andi_eq_one.1 h0
  obtain ⟨h0, g6⟩ := IntOp.andi_eq_one.1 h0
  obtain ⟨h0, g5⟩ := IntOp.andi_eq_one.1 h0
  obtain ⟨h0, g4⟩ := IntOp.andi_eq_one.1 h0
  obtain ⟨h0, g3⟩ := IntOp.andi_eq_one.1 h0
  obtain ⟨h0, g2⟩ := IntOp.andi_eq_one.1 h0
  obtain ⟨g0, g1⟩ := IntOp.andi_eq_one.1 h0
  exact ⟨allReal_of_all _ _ _ a0 g0, allReal_of_all _ _ _ a1 g1, allReal_of_all _ _ _ a2 g2, allReal_of_all _ _ _ a3 g3,
    allReal_of_all _ _ _ a4 g4, allReal_of_all _ _ _ a5 g5, allReal_of_all _ _ _ a6 g6, allReal_of_all _ _ _ a7 g7,
    allReal_of_all _ _ _ a8 g8, allReal_of_all _ _ _ a9 g9, allReal_of_all _ _ _ a10 g10, allReal_of_all _ _ _ a11 g11⟩

end Cert.FiniteInputs

end
-- ==== Proof.lean ====
/-
  A five-layer perceptron with fake-quantized weights, biases and activations: a tiled TPU kernel against its
  reference, equal on the extended reals under finite inputs.

  Both programs stack the two inputs into `X : [262144, 2]`, take the input scale `s = max(max|X|, 1e-8) / 127`, and
  quantize each weight and bias at its own scale (`q(a) = clip(round(a / σ), -127, 127) · σ`) with the same host
  operations. The kernel then runs, sixteen thousand rows at a time, `net`: quantize the rows at `s`; four times a
  product with the transposed weight, plus the bias, clipped to `[-1, 1]` and quantized at `1/127`; a last product and
  bias. The reference does the same on all the rows at once, but spells every quantizer in its straight-through form
  `a + (q(a) - a)`.

  On the extended reals `a + (q - a) = q` whenever `a` is a real number, whatever `q` is: `a + (q - a) = q + (a - a)` and
  `a - a = 0` unless `a` is an infinity. The inputs, weights and biases are real by the precondition (used here, and only
  here); a clipped activation is real always. A matrix-unit product into a zero accumulator and a host `dot_general` are the
  same sum of products; every step of the net acts on each row by itself, so the kernel's sixteen tiles are the
  sixteen row blocks of one array. Hence both programs end with `target` of the arguments.

  The frames of the two kernel programs are the generated ones; the reference's frame is its run with the result
  dropped; the idealization rewrote nothing, so `preserves` is trivial.
-/
import proofs.«123622_j54305566490841_1_alg».proof.Defs
import proofs.«123622_j54305566490841_1_alg».proof.Proof.Gen.Kernel
import proofs.«123622_j54305566490841_1_alg».proof.Proof.Gen.Kernel.Skeleton
import proofs.«123622_j54305566490841_1_alg».proof.Proof.Gen.Kernel.Launch
import proofs.«123622_j54305566490841_1_alg».proof.Proof.Gen.Kernel.Points
import proofs.«123622_j54305566490841_1_alg».proof.Proof.Gen.Kernel.Frame
import proofs.«123622_j54305566490841_1_alg».proof.Proof.Gen.KernelIdeal
import proofs.«123622_j54305566490841_1_alg».proof.Proof.Gen.KernelIdeal.Skeleton
import proofs.«123622_j54305566490841_1_alg».proof.Proof.Gen.KernelIdeal.Launch
import proofs.«123622_j54305566490841_1_alg».proof.Proof.Gen.KernelIdeal.Points
import proofs.«123622_j54305566490841_1_alg».proof.Proof.Gen.KernelIdeal.Frame
import proofs.«123622_j54305566490841_1_alg».proof.Proof.Gen.KernelIdeal.Value
import proofs.«123622_j54305566490841_1_alg».proof.Proof.Gen.ReferenceIdeal
import proofs.«123622_j54305566490841_1_alg».proof.Proof.Gen.Pre_finite_inputs
import proofs.«123622_j54305566490841_1_alg».proof.Proof.KernelTarget
import proofs.«123622_j54305566490841_1_alg».proof.Proof.RefRun
import proofs.«123622_j54305566490841_1_alg».proof.Proof.RefLink
import proofs.«123622_j54305566490841_1_alg».proof.Proof.RefStages
import proofs.«123622_j54305566490841_1_alg».proof.Proof.StackedInput
import proofs.«123622_j54305566490841_1_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

/-- The printed kernel runs and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both idealized programs end with `target` of the arguments: the kernel because its sixteen tiles are the row
    blocks of the net over the quantized parameters, the reference because each straight-through form is its
    quantizer — the inputs' and parameters' by the precondition, the activations' always. -/
theorem algebraic : Cert.algebraic_KernelIdeal_ReferenceIdeal := by
  intro m ρ m' ρ' hpre hagree
  refine ⟨fun c => Cert.ReferenceIdeal.Stages.target (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Target.final_eq_target m c), (h c).2⟩)
      (Cert.KernelIdeal.Value.run_blocks (F := Ideal) m ρ)
  · refine (θ_run Cert.ReferenceIdeal.defs _ _).mono (fun r h c => ⟨?_, (h c).2⟩)
      (Cert.ReferenceIdeal.RunP.run (F := Ideal) m' ρ')
    obtain ⟨r0, r1, r2, r3, r4, r5, r6, r7, r8, r9, r10, r11⟩ := Cert.FiniteInputs.inputs_real _ _ _ _ _ _ _ _ _ _ _ _ (hpre c)
    obtain ⟨e0, e1, e2, e3, e4, e5, e6, e7, e8, e9, e10, e11⟩ := hagree c
    refine (h c).1.trans ((Cert.ReferenceIdeal.LinkP.val_main_v180_eq m' c).trans ?_)
    rw [e0, e1, e2, e3, e4, e5, e6, e7, e8, e9, e10, e11]
    exact Cert.ReferenceIdeal.Stages.result_eq _ _ _ _ _ _ _ _ _ _ _ _
      (Cert.ReferenceIdeal.Stacked.stacked_real _ _ r0 r1) r2 r3 r4 r5 r6 r7 r8 r9 r10 r11

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
